-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S5000 : Shape := ⟨1, ![5000]⟩

abbrev nBuf : Space → Nat
  | .hbm => 61
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S_, .f32⟩
  | .hbm, ⟨21, _⟩ => ⟨S800000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x64, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .bf16⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S1x64, .f32⟩
  | .hbm, ⟨60, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x64, .f32⟩
  | .local _ .vmem, ⟨15, _⟩ => ⟨S5000x64, .bf16⟩
  | .local _ .vmem, ⟨16, _⟩ => ⟨S5000x64, .bf16⟩
  | .local _ .vmem, ⟨17, _⟩ => ⟨S5000x64, .f32⟩
  | .local _ .vmem, ⟨18, _⟩ => ⟨S5000x64, .f32⟩
  | .local _ .vmem, ⟨19, _⟩ => ⟨S5000x64, .bf16⟩
  | .local _ .vmem, ⟨20, _⟩ => ⟨S5000x64, .bf16⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .bf16 = 32 ∨ (Rect.block (s := S50000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .bf16 = 32 ∨ (Rect.block (s := S50000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S50000x128, .f32⟩
  | 12 => ⟨S50000x128, .f32⟩
  | 13 => ⟨S50000x128, .f32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x64, .f32⟩
  | 78 => ⟨S_, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S_, .f32⟩
  | 89 => ⟨S800000, .f32⟩
  | 90 => ⟨S50000, .f32⟩
  | 91 => ⟨S_, .f32⟩
  | 92 => ⟨S50000, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S800000x1, .f32⟩
  | 124 => ⟨S800000x64, .f32⟩
  | 125 => ⟨S800000x64, .f32⟩
  | 126 => ⟨S_, .f32⟩
  | 127 => ⟨S50000x64, .f32⟩
  | _ => ⟨S50000x128, .f32⟩

abbrev hbmTy0_1 (i : Nat) : BufTy := match i % 128 with
  | 0 => ⟨S800000x1, .i32⟩
  | 1 => ⟨S50000x64, .f32⟩
  | 2 => ⟨S50000, .f32⟩
  | 3 => ⟨S50000x1, .f32⟩
  | 4 => ⟨S50000x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S_, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x64, .f32⟩
  | 17 => ⟨S50000x64, .f32⟩
  | 18 => ⟨S50000x64, .f32⟩
  | 19 => ⟨S_, .f32⟩
  | 20 => ⟨S50000, .f32⟩
  | 21 => ⟨S50000x1, .f32⟩
  | 22 => ⟨S50000x64, .f32⟩
  | 23 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_cst : Ref sig .tc := ⟨.hbm, 74, rfl⟩
abbrev main_call1_v0 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_19 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_cst_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_24 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result named.

  The program is three pipelined regions among stretches of host operations. Its run ends, on every core, with every
  unscoped buffer at the last boundary's contents: the arguments as launched, and the result array at what the third
  region's write-backs leave, which is the third pipeline's output array after its last grid point.
-/
import proofs.«145041_j41059887350098_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_boundary : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

/-- The result buffer at the last boundary is the third pipeline's output array after its last point. -/
theorem boundary_result (c : Dev nD) :
    W6 m ρ c (Proc.devRef .tc main_v43) = (dat2 (V5 m ρ) c).arrAt 4 cfg2.N :=
  W6_arr m ρ c 4

end Cert.KernelIdeal.RunValue

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibGcnFactor.lean ====
/-
  A graph-convolution layer on the extended reals, with the destination node's scale either carried by every edge or
  factored out of the aggregation, over any sizes.

  R nodes carry rows of C numbers, the table H; n edges; D gives one number per node (the inverse square root of its
  degree, but nothing here asks what it is). Edge e is sent to node r when `sel e r` holds, reads the row of its source
  node `src e`, and names a destination node `dst e` which is r whenever the edge is sent to r. The edgewise layer is

      (Σ_{e sent to r} H (src e, c) · (D (src e) · D (dst e))) + H (r, c) · (D r · D r) + b c,

  the factored one

      D r · ((Σ_{e sent to r} H (src e, c) · D (src e)) + H (r, c) · D r) + b c.

  They agree when D and H hold real numbers (`aggFactored_eq_aggEdgewise`): D r then distributes over the finite sum.
  At an infinite entry they may differ, which is why the hypotheses are there. Both are real when b is. `dense` is a
  row times a table after the row is cut off below at zero; two layers with a dense product before each
  (`logitsFactored`, `logitsEdgewise`) agree on real inputs (`logits_eq`).
-/
import Idealize.ShloMosaic.PureOps.Ideal
import proofs.«145041_j41059887350098_2_alg».proof.Proof.LibRealEntries

noncomputable section

open scoped BigOperators

namespace Cert.LibGcnFactor

open Cert.LibRealEntries

variable {R n C K : Nat}

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Row r of X, cut off below at zero, times column c of W. -/
def dense (X : Fin R → Fin K → EReal) (W : Fin K → Fin C → EReal) (r : Fin R) (c : Fin C) : EReal :=
  ∑ k : Fin K, max (X r k) 0 * W k c

/-- The layer with the destination's scale factored out of the sum. -/
def aggFactored (sel : Fin n → Fin R → Prop) [∀ e r, Decidable (sel e r)] (src : Fin n → Fin R) (D : Fin R → EReal)
    (H : Fin R → Fin C → EReal) (b : Fin C → EReal) (r : Fin R) (c : Fin C) : EReal :=
  D r * ((0 + ∑ e : Fin n, if sel e r then H (src e) c * D (src e) else 0) + H r c * D r) + b c

/-- The layer with both scales on every edge. -/
def aggEdgewise (sel : Fin n → Fin R → Prop) [∀ e r, Decidable (sel e r)] (src dst : Fin n → Fin R) (D : Fin R → EReal)
    (H : Fin R → Fin C → EReal) (b : Fin C → EReal) (r : Fin R) (c : Fin C) : EReal :=
  ((0 + ∑ e : Fin n, if sel e r then H (src e) c * (D (src e) * D (dst e)) else 0) + H r c * (D r * D r)) + b c

/-- ON REAL ENTRIES THE TWO LAYERS AGREE: D r distributes over the sum of the edges sent to r. -/
theorem aggFactored_eq_aggEdgewise (sel : Fin n → Fin R → Prop) [∀ e r, Decidable (sel e r)] (src dst : Fin n → Fin R)
    (hsel : ∀ e r, sel e r → dst e = r) (D : Fin R → EReal) (H : Fin R → Fin C → EReal) (b : Fin C → EReal)
    (hD : ∀ r, IsReal (D r)) (hH : ∀ r c, IsReal (H r c)) (r : Fin R) (c : Fin C) :
    aggFactored sel src D H b r c = aggEdgewise sel src dst D H b r c := by
  choose d hd using hD
  choose h hh using hH
  unfold aggFactored aggEdgewise
  refine congrArg (· + b c) ?_
  have e1 : (∑ e : Fin n, if sel e r then H (src e) c * D (src e) else 0)
      = ((∑ e : Fin n, if sel e r then h (src e) c * d (src e) else 0 : ℝ) : EReal) := by
    rw [coe_sum]
    refine Finset.sum_congr rfl fun e _ => ?_
    split_ifs
    · rw [hh, hd, EReal.coe_mul]
    · exact EReal.coe_zero.symm
  have e2 : (∑ e : Fin n, if sel e r then H (src e) c * (D (src e) * D (dst e)) else 0)
      = ((∑ e : Fin n, if sel e r then h (src e) c * (d (src e) * d r) else 0 : ℝ) : EReal) := by
    rw [coe_sum]
    refine Finset.sum_congr rfl fun e _ => ?_
    split_ifs with hs
    · rw [hsel e r hs, hh, hd, hd, EReal.coe_mul, EReal.coe_mul]
    · exact EReal.coe_zero.symm
  rw [e1, e2, hh r c, hd r, zero_add, zero_add, ← EReal.coe_mul, ← EReal.coe_add, ← EReal.coe_mul, ← EReal.coe_mul,
    ← EReal.coe_mul, ← EReal.coe_add]
  refine congrArg _ ?_
  rw [mul_add, Finset.mul_sum]
  refine congrArg₂ (· + ·) (Finset.sum_congr rfl fun e _ => ?_) (by ring)
  split_ifs
  · ring
  · exact mul_zero _

/-- A dense product of real rows and a real table is real. -/
theorem isReal_dense (X : Fin R → Fin K → EReal) (W : Fin K → Fin C → EReal) (hX : ∀ r k, IsReal (X r k))
    (hW : ∀ k c, IsReal (W k c)) (r : Fin R) (c : Fin C) : IsReal (dense X W r c) :=
  isReal_sum _ _ fun k _ => ((hX r k).max isReal_zero).mul (hW k c)

/-- The factored layer of real entries is real. -/
theorem isReal_aggFactored (sel : Fin n → Fin R → Prop) [∀ e r, Decidable (sel e r)] (src : Fin n → Fin R)
    (D : Fin R → EReal) (H : Fin R → Fin C → EReal) (b : Fin C → EReal) (hD : ∀ r, IsReal (D r))
    (hH : ∀ r c, IsReal (H r c)) (hb : ∀ c, IsReal (b c)) (r : Fin R) (c : Fin C) :
    IsReal (aggFactored sel src D H b r c) :=
  ((hD r).mul ((isReal_zero.add (isReal_sum _ _ fun e _ => IsReal.ite ((hH _ _).mul (hD _)) isReal_zero)).add
    ((hH r c).mul (hD r)))).add (hb c)

/-- Two factored layers, a dense product before each. -/
def logitsFactored (sel : Fin n → Fin R → Prop) [∀ e r, Decidable (sel e r)] (src : Fin n → Fin R) (D : Fin R → EReal)
    {K1 C1 C2 : Nat} (X : Fin R → Fin K1 → EReal) (W1 : Fin K1 → Fin C1 → EReal) (b1 : Fin C1 → EReal)
    (W2 : Fin C1 → Fin C2 → EReal) (b2 : Fin C2 → EReal) (r : Fin R) (c : Fin C2) : EReal :=
  aggFactored sel src D (dense (aggFactored sel src D (dense X W1) b1) W2) b2 r c

/-- Two edgewise layers, a dense product before each. -/
def logitsEdgewise (sel : Fin n → Fin R → Prop) [∀ e r, Decidable (sel e r)] (src dst : Fin n → Fin R) (D : Fin R → EReal)
    {K1 C1 C2 : Nat} (X : Fin R → Fin K1 → EReal) (W1 : Fin K1 → Fin C1 → EReal) (b1 : Fin C1 → EReal)
    (W2 : Fin C1 → Fin C2 → EReal) (b2 : Fin C2 → EReal) (r : Fin R) (c : Fin C2) : EReal :=
  aggEdgewise sel src dst D (dense (aggEdgewise sel src dst D (dense X W1) b1) W2) b2 r c

/-- THE TWO NETWORKS AGREE on real features, weights, first bias and scales (the last bias may be anything). -/
theorem logits_eq (sel : Fin n → Fin R → Prop) [∀ e r, Decidable (sel e r)] (src dst : Fin n → Fin R)
    (hsel : ∀ e r, sel e r → dst e = r) (D : Fin R → EReal) {K1 C1 C2 : Nat}
    (X : Fin R → Fin K1 → EReal) (W1 : Fin K1 → Fin C1 → EReal) (b1 : Fin C1 → EReal)
    (W2 : Fin C1 → Fin C2 → EReal) (b2 : Fin C2 → EReal)
    (hD : ∀ r, IsReal (D r)) (hX : ∀ r k, IsReal (X r k)) (hW1 : ∀ k c, IsReal (W1 k c)) (hb1 : ∀ c, IsReal (b1 c))
    (hW2 : ∀ k c, IsReal (W2 k c)) (r : Fin R) (c : Fin C2) :
    logitsFactored sel src D X W1 b1 W2 b2 r c = logitsEdgewise sel src dst D X W1 b1 W2 b2 r c := by
  unfold logitsFactored logitsEdgewise
  have h1 : aggFactored sel src D (dense X W1) b1 = aggEdgewise sel src dst D (dense X W1) b1 :=
    funext fun r => funext fun c =>
      aggFactored_eq_aggEdgewise sel src dst hsel D (dense X W1) b1 hD (isReal_dense X W1 hX hW1) r c
  rw [← h1]
  exact aggFactored_eq_aggEdgewise sel src dst hsel D _ b2 hD
    (isReal_dense _ W2 (isReal_aggFactored sel src D (dense X W1) b1 hD (isReal_dense X W1 hX hW1) hb1) hW2) r c

end Cert.LibGcnFactor

end
-- ==== Proof.Region0.lean ====
/-
  The first pipelined region at the extended reals: ten blocks of 5000 rows. Block t of the output is computed from
  rows 5000·t … 5000·t + 4999 of the features, the whole first weight table and the same rows of the scale column:
  entry (p, q) of the block is (Σ_k max(x (p, k), 0) · W (k, q)) · d (p, 0). The blocks tile the output array, so the
  array after the region is that function of the three input arrays at every row.
-/
import proofs.«145041_j41059887350098_2_alg».proof.Proof.Gen.KernelIdeal.Frame
import proofs.«145041_j41059887350098_2_alg».proof.Proof.LibPlainMatmul
import proofs.«145041_j41059887350098_2_alg».proof.Proof.LibColRowBroadcast
import proofs.«145041_j41059887350098_2_alg».proof.Proof.LibGcnFactor
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibGcnFactor

theorem off_zero : (![0, 0] : Fin 2 → Nat) = fun _ => 0 := funext fun a => by fin_cases a <;> rfl

/-- The projected, scaled table: (Σ_k max(X (r, k), 0) · W (k, c)) · d (r, 0). -/
def projScaled {R K C : Nat} {φ : FTy} (X : FVec Ideal ⟨2, ![R, K]⟩ .f32) (W : FVec Ideal ⟨2, ![K, C]⟩ .f32)
    (d : FVec Ideal ⟨2, ![R, 1]⟩ .f32) : FVec Ideal ⟨2, ![R, C]⟩ φ :=
  fun i => dense (fun r k => X (ix2 r k)) (fun k c => W (ix2 k c)) (i 0) (i 1) * d (ix2 (i 0) (0 : Fin 1))

theorem projScaled_ix2 {R K C : Nat} {φ : FTy} (X : FVec Ideal ⟨2, ![R, K]⟩ .f32) (W : FVec Ideal ⟨2, ![K, C]⟩ .f32)
    (d : FVec Ideal ⟨2, ![R, 1]⟩ .f32) (r : Fin R) (c : Fin C) :
    projScaled (φ := φ) X W d (ix2 r c)
      = dense (fun r k => X (ix2 r k)) (fun k c => W (ix2 k c)) r c * d (ix2 r (0 : Fin 1)) := rfl

/-- The body's stored value at (p, q) of the block. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q)
      = dense (fun r k => x0 (ix2 r k)) (fun k c => x1 (ix2 k c)) p q * x2 (ix2 p (0 : Fin 1)) := by
  unfold k0_pay1
  rw [truncf_apply, mulf_apply, shapeCast_self, Cert.ColRowBroadcast.colBroadcast_apply]
  refine congrArg (· * x2 (ix2 p (0 : Fin 1))) ?_
  refine (Cert.PlainMatmul.matmul_zero_apply 5000 128 128 none _ _ p q).trans ?_
  unfold dense
  refine Finset.sum_congr rfl fun k _ => ?_
  rw [truncf_apply, truncf_apply, maximumf_apply, broadcast_apply]
  show max (x0 (ix2 p k)) (Ideal.ofBits .f32 0x00000000#32) * x1 (ix2 k q) = _
  rw [Ideal.ofBits_zero_f32]

/-! ## From the blocks to the array -/

/-- The printed index maps over the ten grid points: the row blocks move with the point, the weight table stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of block t is row 5000·t + p of the array. -/
def rowOf0 (t : Fin cfg0.N) (p : Fin 5000) : Fin 50000 :=
  ⟨t.val * 5000 + p.val, by have h : t.val < 10 := lt_of_lt_of_eq t.isLt N_0; have := p.isLt; omega⟩

variable (V : (c : Dev nD) → (b : Ref sig .tc) → Buf (Elt Ideal) ((c : Thread nD τ).loc b))

theorem read0_0 (c : Dev nD) (t : Fin cfg0.N) (p : Fin 5000) (k : Fin 128) :
    iblk0 V c 0 t (ix2 p k) = V c main_arg0 (ix2 (rowOf0 t p) k) := by
  obtain ⟨e0, e1, -⟩ := idx_facts0 t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem read0_1 (c : Dev nD) (t : Fin cfg0.N) (k : Fin 128) (q : Fin 128) :
    iblk0 V c 1 t (ix2 k q) = V c main_arg2 (ix2 k q) := by
  obtain ⟨-, -, e0, e1, -⟩ := idx_facts0 t
  show V c main_arg2 (((cfg0.win 1).blk t).view.emb (ix2 k q)) = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

theorem read0_2 (c : Dev nD) (t : Fin cfg0.N) (p : Fin 5000) :
    iblk0 V c 2 t (ix2 p (0 : Fin 1)) = V c main_v16 (ix2 (rowOf0 t p) (0 : Fin 1)) := by
  obtain ⟨-, -, -, -, e0, e1, -⟩ := idx_facts0 t
  show V c main_v16 (((cfg0.win 2).blk t).view.emb (ix2 p (0 : Fin 1))) = _
  refine congrArg _ (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

theorem emb0_3 (t : Fin cfg0.N) (p : Fin 5000) (q : Fin 128) :
    ((cfg0.win 3).blk t).view.emb (ix2 p q) = ix2 (rowOf0 t p) q := by
  obtain ⟨-, -, -, -, -, -, e0, e1⟩ := idx_facts0 t
  refine funext fun a => Fin.ext ?_
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-- What point t writes back is block t of the projected, scaled table of the arrays as the region finds them. -/
theorem flushed0 (c : Dev nD) (t : Fin cfg0.N) :
    (dat0 V c).flushed 3 t = ((cfg0.win 3).blk t).view.read (Elt Ideal)
      (projScaled (φ := .bf16) (V c main_arg0) (V c main_arg2) (V c main_v16)) := by
  show (cfg0.win 3).cut (grid0.coords t) ((dat0 V c).after 3 t) = _
  rw [after0_3]
  unfold out0_3
  rw [View.canon_unit_zero off_zero]
  simp only [View.ld_unit_zero (S := S5000x128) off_zero, View.ld_unit_zero (S := S128x128) off_zero,
    View.ld_unit_zero (S := S5000x1) off_zero]
  funext j
  obtain ⟨p, q, rfl⟩ : ∃ (p : Fin 5000) (q : Fin 128), j = ix2 p q := ⟨j 0, j 1, eq_ix2 j⟩
  refine (pay0_apply (iblk0 V c 0 t) (iblk0 V c 1 t) (iblk0 V c 2 t) p q).trans ?_
  show _ = projScaled (φ := .bf16) (V c main_arg0) (V c main_arg2) (V c main_v16) (((cfg0.win 3).blk t).view.emb (ix2 p q))
  rw [emb0_3, projScaled_ix2, read0_2]
  refine congrArg (· * V c main_v16 (ix2 (rowOf0 t p) (0 : Fin 1))) ?_
  unfold dense
  refine Finset.sum_congr rfl fun k _ => ?_
  beta_reduce
  rw [read0_0, read0_1]

/-- An index of the array is in point t's block iff each coordinate is in the block's range. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Every row of the array is in the block of the point its number divided by 5000 names. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) N_0.symm⟩
  obtain ⟨-, -, -, -, -, -, e0, e1⟩ := idx_facts0 t
  have ht : t.val = (i 0).val / 5000 := rfl
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- THE OUTPUT ARRAY AFTER THE REGION. -/
theorem region0_out (c : Dev nD) :
    (dat0 V c).arrAt 3 cfg0.N = projScaled (φ := .bf16) (V c main_arg0) (V c main_arg2) (V c main_v16) :=
  (dat0 V c).arrAt_eq_of_cover 3 _ (fun t _ => flushed0 V c t) cover0

end Cert.KernelIdeal.Regions

end
-- ==== Proof.Region1.lean ====
/-
  The second pipelined region at the extended reals: ten blocks of 5000 rows. With s the summed neighbour rows, g the
  node's own scaled row, d the scale column, b the bias row and W the second weight table, entry (p, q) of block t is

      (Σ_k max(d (p, 0) · (s (p, k) + g (p, k)) + b (0, k), 0) · W (k, q)) · d (p, 0)

  at rows 5000·t … 5000·t + 4999 of s, g and d. The blocks tile the output array.
-/
import proofs.«145041_j41059887350098_2_alg».proof.Proof.Gen.KernelIdeal.Frame
import proofs.«145041_j41059887350098_2_alg».proof.Proof.LibPlainMatmul
import proofs.«145041_j41059887350098_2_alg».proof.Proof.LibColRowBroadcast
import proofs.«145041_j41059887350098_2_alg».proof.Proof.LibGcnFactor
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibGcnFactor

theorem off_zero1 : (![0, 0] : Fin 2 → Nat) = fun _ => 0 := funext fun a => by fin_cases a <;> rfl

/-- The aggregated row: d (r, 0) · (s (r, k) + g (r, k)) + b (0, k). -/
def aggRow {R C : Nat} {φ : FTy} (s : FVec Ideal ⟨2, ![R, C]⟩ .f32) (g : FVec Ideal ⟨2, ![R, C]⟩ φ)
    (d : FVec Ideal ⟨2, ![R, 1]⟩ .f32) (b : FVec Ideal ⟨2, ![1, C]⟩ .f32) (r : Fin R) (k : Fin C) : EReal :=
  d (ix2 r (0 : Fin 1)) * (s (ix2 r k) + g (ix2 r k)) + b (ix2 (0 : Fin 1) k)

/-- The second layer's projected, scaled table. -/
def aggProjScaled {R K C : Nat} {φ ψ : FTy} (s : FVec Ideal ⟨2, ![R, K]⟩ .f32) (g : FVec Ideal ⟨2, ![R, K]⟩ φ)
    (d : FVec Ideal ⟨2, ![R, 1]⟩ .f32) (b : FVec Ideal ⟨2, ![1, K]⟩ .f32) (W : FVec Ideal ⟨2, ![K, C]⟩ .f32) :
    FVec Ideal ⟨2, ![R, C]⟩ ψ :=
  fun i => dense (aggRow s g d b) (fun k c => W (ix2 k c)) (i 0) (i 1) * d (ix2 (i 0) (0 : Fin 1))

theorem aggProjScaled_ix2 {R K C : Nat} {φ ψ : FTy} (s : FVec Ideal ⟨2, ![R, K]⟩ .f32) (g : FVec Ideal ⟨2, ![R, K]⟩ φ)
    (d : FVec Ideal ⟨2, ![R, 1]⟩ .f32) (b : FVec Ideal ⟨2, ![1, K]⟩ .f32) (W : FVec Ideal ⟨2, ![K, C]⟩ .f32)
    (r : Fin R) (c : Fin C) :
    aggProjScaled (ψ := ψ) s g d b W (ix2 r c)
      = dense (aggRow s g d b) (fun k c => W (ix2 k c)) r c * d (ix2 r (0 : Fin 1)) := rfl

/-- The body's stored value at (p, q) of the block. -/
theorem pay1_apply (v0 : Vec Ideal S5000x1 .f32) (v2 : Vec Ideal S5000x128 .f32) (v4 : Vec Ideal S5000x128 .bf16)
    (v10 : Vec Ideal S1x128 .f32) (v17 : Vec Ideal S128x64 .f32) (p : Fin 5000) (q : Fin 64) :
    k1_pay1 (F := Ideal) v0 v2 v4 v10 v17 (ix2 p q)
      = dense (aggRow (φ := .bf16) v2 v4 v0 v10) (fun k c => v17 (ix2 k c)) p q * v0 (ix2 p (0 : Fin 1)) := by
  unfold k1_pay1
  rw [truncf_apply, mulf_apply, shapeCast_self, Cert.ColRowBroadcast.colBroadcast_apply]
  refine congrArg (· * v0 (ix2 p (0 : Fin 1))) ?_
  refine (Cert.PlainMatmul.matmul_zero_apply 5000 128 64 none _ _ p q).trans ?_
  unfold dense aggRow
  refine Finset.sum_congr rfl fun k _ => ?_
  rw [truncf_apply, truncf_apply, maximumf_apply, broadcast_apply, addf_apply, mulf_apply,
    Cert.ColRowBroadcast.colBroadcast_apply, addf_apply, extf_apply, shapeCast_self, shapeCast_self, shapeCast_self,
    Cert.ColRowBroadcast.rowBroadcast_apply]
  show max _ (Ideal.ofBits .f32 0x00000000#32) * v17 (ix2 k q) = _
  rw [Ideal.ofBits_zero_f32]

/-! ## From the blocks to the array -/

/-- The printed index maps over the ten grid points: the row blocks move with the point, the tables stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 5000·t + p of the array. -/
def rowOf1 (t : Fin cfg1.N) (p : Fin 5000) : Fin 50000 :=
  ⟨t.val * 5000 + p.val, by have h : t.val < 10 := lt_of_lt_of_eq t.isLt N_1; have := p.isLt; omega⟩

variable (V : (c : Dev nD) → (b : Ref sig .tc) → Buf (Elt Ideal) ((c : Thread nD τ).loc b))

theorem read1_0 (c : Dev nD) (t : Fin cfg1.N) (p : Fin 5000) (k : Fin 128) :
    iblk1 V c 0 t (ix2 p k) = V c main_v28 (ix2 (rowOf1 t p) k) := by
  obtain ⟨e0, e1, -⟩ := idx_facts1 t
  show V c main_v28 (((cfg1.win 0).blk t).view.emb (ix2 p k)) = _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem read1_1 (c : Dev nD) (t : Fin cfg1.N) (p : Fin 5000) (k : Fin 128) :
    iblk1 V c 1 t (ix2 p k) = V c main_v17 (ix2 (rowOf1 t p) k) := by
  obtain ⟨-, -, e0, e1, -⟩ := idx_facts1 t
  show V c main_v17 (((cfg1.win 1).blk t).view.emb (ix2 p k)) = _
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

theorem read1_2 (c : Dev nD) (t : Fin cfg1.N) (p : Fin 5000) :
    iblk1 V c 2 t (ix2 p (0 : Fin 1)) = V c main_v16 (ix2 (rowOf1 t p) (0 : Fin 1)) := by
  obtain ⟨-, -, -, -, e0, e1, -⟩ := idx_facts1 t
  show V c main_v16 (((cfg1.win 2).blk t).view.emb (ix2 p (0 : Fin 1))) = _
  refine congrArg _ (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 1 + 1 * 0 = 0; rw [e1]

theorem read1_3 (c : Dev nD) (t : Fin cfg1.N) (k : Fin 128) :
    iblk1 V c 3 t (ix2 (0 : Fin 1) k) = V c main_v29 (ix2 (0 : Fin 1) k) := by
  obtain ⟨-, -, -, -, -, -, e0, e1, -⟩ := idx_facts1 t
  show V c main_v29 (((cfg1.win 3).blk t).view.emb (ix2 (0 : Fin 1) k)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * k.val = k.val; rw [e1]; omega

theorem read1_4 (c : Dev nD) (t : Fin cfg1.N) (k : Fin 128) (q : Fin 64) :
    iblk1 V c 4 t (ix2 k q) = V c main_arg4 (ix2 k q) := by
  obtain ⟨-, -, -, -, -, -, -, -, e0, e1, -⟩ := idx_facts1 t
  show V c main_arg4 (((cfg1.win 4).blk t).view.emb (ix2 k q)) = _
  refine congrArg _ (funext fun a => Fin.ext ?_)
  match a with
  | ⟨0, _⟩ => show win1_4.index t (0 : Fin 2) * 128 + 1 * k.val = k.val; rw [e0]; omega
  | ⟨1, _⟩ => show win1_4.index t (1 : Fin 2) * 64 + 1 * q.val = q.val; rw [e1]; omega

theorem emb1_5 (t : Fin cfg1.N) (p : Fin 5000) (q : Fin 64) :
    ((cfg1.win 5).blk t).view.emb (ix2 p q) = ix2 (rowOf1 t p) q := by
  obtain ⟨-, -, -, -, -, -, -, -, -, -, e0, e1⟩ := idx_facts1 t
  refine funext fun a => Fin.ext ?_
  match a with
  | ⟨0, _⟩ => show win1_5.index t (0 : Fin 2) * 5000 + 1 * p.val = t.val * 5000 + p.val; rw [e0]; omega
  | ⟨1, _⟩ => show win1_5.index t (1 : Fin 2) * 64 + 1 * q.val = q.val; rw [e1]; omega

/-- What point t writes back is block t of the second layer's table of the arrays as the region finds them. -/
theorem flushed1 (c : Dev nD) (t : Fin cfg1.N) :
    (dat1 V c).flushed 5 t = ((cfg1.win 5).blk t).view.read (Elt Ideal)
      (aggProjScaled (φ := .bf16) (ψ := .bf16) (V c main_v28) (V c main_v17) (V c main_v16) (V c main_v29) (V c main_arg4)) := by
  show (cfg1.win 5).cut (grid1.coords t) ((dat1 V c).after 5 t) = _
  rw [after1_5]
  unfold out1_5
  rw [View.canon_unit_zero off_zero1]
  simp only [View.ld_unit_zero (S := S5000x128) off_zero1, View.ld_unit_zero (S := S128x64) off_zero1,
    View.ld_unit_zero (S := S5000x1) off_zero1, View.ld_unit_zero (S := S1x128) off_zero1]
  funext j
  obtain ⟨p, q, rfl⟩ : ∃ (p : Fin 5000) (q : Fin 64), j = ix2 p q := ⟨j 0, j 1, eq_ix2 j⟩
  refine (pay1_apply (iblk1 V c 2 t) (iblk1 V c 0 t) (iblk1 V c 1 t) (iblk1 V c 3 t) (iblk1 V c 4 t) p q).trans ?_
  show _ = aggProjScaled (φ := .bf16) (ψ := .bf16) (V c main_v28) (V c main_v17) (V c main_v16) (V c main_v29) (V c main_arg4)
    (((cfg1.win 5).blk t).view.emb (ix2 p q))
  rw [emb1_5, aggProjScaled_ix2, read1_2]
  refine congrArg (· * V c main_v16 (ix2 (rowOf1 t p) (0 : Fin 1))) ?_
  unfold dense aggRow
  refine Finset.sum_congr rfl fun k _ => ?_
  beta_reduce
  rw [read1_0, read1_1, read1_2, read1_3, read1_4]

/-- An index of the array is in point t's block iff each coordinate is in the block's range. -/
theorem mem_blk1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v30).slice (win1_5.rect t)).set ↔ _
  rw [View.set_slice_whole, Rect.mem_set_unit]
  exact Iff.rfl

/-- Every row of the array is in the block of the point its number divided by 5000 names. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 5000, lt_of_lt_of_eq (by omega : (i 0).val / 5000 < 10) N_1.symm⟩
  obtain ⟨-, -, -, -, -, -, -, -, -, -, e0, e1⟩ := idx_facts1 t
  have ht : t.val = (i 0).val / 5000 := rfl
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- THE OUTPUT ARRAY AFTER THE REGION. -/
theorem region1_out (c : Dev nD) :
    (dat1 V c).arrAt 5 cfg1.N
      = aggProjScaled (φ := .bf16) (ψ := .bf16) (V c main_v28) (V c main_v17) (V c main_v16) (V c main_v29) (V c main_arg4) :=
  (dat1 V c).arrAt_eq_of_cover 5 _ (fun t _ => flushed1 V c t) cover1

end Cert.KernelIdeal.Regions

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibGuardedSoftmax.lean ====
/-
  The softmax of a matrix's rows as a vector kernel spells it when the row maximum is guarded by a further maximum
  with −∞, read at one entry on the extended reals, over any sizes: since −∞ is the least extended real the guard
  changes nothing, and the entry at (p, q) is the softmax of row p at q.
-/
import Idealize.ShloMosaic.PureOps.Ideal.Laws
import Idealize.ShloMosaic.Lib.ValueIdx
import Idealize.ShloMosaic.Lib.Pipeline.Value
import proofs.«145041_j41059887350098_2_alg».proof.Proof.LibRowSoftmax

noncomputable section

open scoped BigOperators

namespace Cert.RowSoftmax

open Idealize.ShloMosaic Idealize.ShloMosaic.ValueIdx

/-- The lanes' maximum from −∞, then the maximum with a splat −∞, at row p: the row's greatest entry. -/
theorem guardedLaneMax_apply {a b : ℕ} (v : FVec Ideal ⟨2, ![a, b]⟩ .f32) (hr : Shape.Reduces ⟨2, ![a, b]⟩ [1] ⟨1, ![a]⟩)
    (hφ : FKind.Formats .f32) (hm : (0xFF800000#32 : BitVec 32) = FKind.maximumf.neutral .f32 hφ) (p : Fin a) :
    maximumf (broadcast ⟨1, ![a]⟩ (Scalar.ofBits (F := Ideal) .f32 0xFF800000#32))
        (multiReduction .maximumf [1] ⟨1, ![a]⟩ v 0xFF800000#32 hr hφ hm) (ix1 p)
      = rowMax (fun k : Fin b => v (ix2 p k)) := by
  show max (Ideal.ofBits .f32 0xFF800000#32) (multiReduction .maximumf [1] ⟨1, ![a]⟩ v 0xFF800000#32 hr hφ hm (ix1 p)) = _
  rw [max_negInf, laneMax_apply]

/-- The whole vector expression with the guarded maximum reads, at (p, q), the softmax of row p at q. -/
theorem guardedVectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ v 0xFF800000#32 hr hφ hm)) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ v 0xFF800000#32 hr hφ hm)) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ v 0xFF800000#32 hr hφ hm)) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ v 0xFF800000#32 hr hφ hm)) hc) hb (ix2 p k)) = _
    rw [keepdimsCol_apply, guardedLaneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

end Cert.RowSoftmax

end
-- ==== Proof.Region2.lean ====
/-
  The third pipelined region at the extended reals: ten blocks of 5000 rows. With s the summed neighbour rows, g the
  node's own scaled row, d the scale column and b the bias row, row p of block t is the softmax of the row

      k ↦ d (p, 0) · (s (p, k) + g (p, k)) + b (0, k)

  at rows 5000·t … 5000·t + 4999 of s, g and d. The blocks tile the output array.
-/
import proofs.«145041_j41059887350098_2_alg».proof.Proof.Gen.KernelIdeal.Frame
import proofs.«145041_j41059887350098_2_alg».proof.Proof.LibColRowBroadcast
import proofs.«145041_j41059887350098_2_alg».proof.Proof.LibRowSoftmax
import proofs.«145041_j41059887350098_2_alg».proof.Proof.LibGuardedSoftmax
import proofs.«145041_j41059887350098_2_alg».proof.Proof.Region1
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibGcnFactor Cert.RowSoftmax

/-- The softmax of every aggregated row. -/
def aggSoftmax {R C : Nat} {φ : FTy} (s : FVec Ideal ⟨2, ![R, C]⟩ .f32) (g : FVec Ideal ⟨2, ![R, C]⟩ φ)
    (d : FVec Ideal ⟨2, ![R, 1]⟩ .f32) (b : FVec Ideal ⟨2, ![1, C]⟩ .f32) : FVec Ideal ⟨2, ![R, C]⟩ .f32 :=
  fun i => rowSoftmax (fun k => aggRow s g d b (i 0) k) (i 1)

theorem aggSoftmax_ix2 {R C : Nat} {φ : FTy} (s : FVec Ideal ⟨2, ![R, C]⟩ .f32) (g : FVec Ideal ⟨2, ![R, C]⟩ φ)
    (d : FVec Ideal ⟨2, ![R, 1]⟩ .f32) (b : FVec Ideal ⟨2, ![1, C]⟩ .f32) (r : Fin R) (c : Fin C) :
    aggSoftmax s g d b (ix2 r c) = rowSoftmax (fun k => aggRow s g d b r k) c := rfl

/-- The body's stored value at (p, q) of the block. -/
theorem pay2_apply (v0 : Vec Ideal S5000x1 .f32) (v2 : Vec Ideal S5000x64 .f32) (v4 : Vec Ideal S5000x64 .bf16)
    (v10 : Vec Ideal S1x64 .f32) (p : Fin 5000) (q : Fin 64) :
    k2_pay1 (F := Ideal) v0 v2 v4 v10 (ix2 p q) = rowSoftmax (fun k => aggRow (φ := .bf16) v2 v4 v0 v10 p k) q := by
  unfold k2_pay1
  refine (guardedVectorSoftmax_apply _ reduces_S5000x64_S5000 (.inl rfl) (.inl rfl) rfl rfl shapeCasts_S5000_S5000x1
    broadcasts_S5000x1_S5000x64 p q).trans ?_
  refine (softmax2_ix2 _ p q).trans ?_
  refine congrArg (fun f => rowSoftmax f q) (funext fun k => ?_)
  unfold aggRow
  rw [addf_apply, mulf_apply, Cert.ColRowBroadcast.colBroadcast_apply, addf_apply, extf_apply, shapeCast_self,
    shapeCast_self, shapeCast_self, shapeCast_self, Cert.ColRowBroadcast.rowBroadcast_apply]

/-! ## From the blocks to the array -/

theorem off_zero2 : (![0, 0] : Fin 2 → Nat) = fun _ => 0 := funext fun a => by fin_cases a <;> rfl

/-- The printed index maps over the ten grid points: the row blocks move with the point, the bias row stays. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of block t is row 5000·t + p of the array. -/
def rowOf2 (t : Fin cfg2.N) (p : Fin 5000) : Fin 50000 :=
  ⟨t.val * 5000 + p.val, by have h : t.val < 10 := lt_of_lt_of_eq t.isLt N_2; have := p.isLt; omega⟩

variable (V : (c : Dev nD) → (b : Ref sig .tc) → Buf (Elt Ideal) ((c : Thread nD τ).loc b))

theorem read2_0 (c : Dev nD) (t : Fin cfg2.N) (p : Fin 5000) (k : Fin 64) :
    iblk2 V c 0 t (ix2 p k) = V c main_v41 (ix2 (rowOf2 t p) k) := by
  obtain ⟨e0, e1, -⟩ := idx_facts2 t
  show V c main_v41 (((cfg2.win 0).blk t).view.emb (ix2 p k)) = _
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

theorem read2_1 (c : Dev nD) (t : Fin cfg2.N) (p : Fin 5000) (k : Fin 64) :
    iblk2 V c 1 t (ix2 p k) = V c main_v30 (ix2 (rowOf2 t p) k) := by
  obtain ⟨-, -, e0, e1, -⟩ := idx_facts2 t
  show V c main_v30 (((cfg2.win 1).blk t).view.emb (ix2 p k)) = _
  refine congrArg _ (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 64 + 1 * k.val = k.val; rw [e1]; omega

theorem read2_2 (c : Dev nD) (t : Fin cfg2.N) (p : Fin 5000) :
    iblk2 V c 2 t (ix2 p (0 : Fin 1)) = V c main_v16 (ix2 (rowOf2 t p) (0 : Fin 1)) := by
  obtain ⟨-, -, -, -, e0, e1, -⟩ := idx_facts2 t
  show V c main_v16 (((cfg2.win 2).blk t).view.emb (ix2 p (0 : Fin 1))) = _
  refine congrArg _ (funext fun a => Fin.ext ?_)
  match a with
  | ⟨0, _⟩ => show win2_2.index t (0 : Fin 2) * 5000 + 1 * p.val = t.val * 5000 + p.val; rw [e0]; omega
  | ⟨1, _⟩ => show win2_2.index t (1 : Fin 2) * 1 + 1 * 0 = 0; rw [e1]

theorem read2_3 (c : Dev nD) (t : Fin cfg2.N) (k : Fin 64) :
    iblk2 V c 3 t (ix2 (0 : Fin 1) k) = V c main_v42 (ix2 (0 : Fin 1) k) := by
  obtain ⟨-, -, -, -, -, -, e0, e1, -⟩ := idx_facts2 t
  show V c main_v42 (((cfg2.win 3).blk t).view.emb (ix2 (0 : Fin 1) k)) = _
  refine congrArg _ (funext fun a => Fin.ext ?_)
  match a with
  | ⟨0, _⟩ => show win2_3.index t (0 : Fin 2) * 1 + 1 * 0 = 0; rw [e0]
  | ⟨1, _⟩ => show win2_3.index t (1 : Fin 2) * 64 + 1 * k.val = k.val; rw [e1]; omega

theorem emb2_4 (t : Fin cfg2.N) (p : Fin 5000) (q : Fin 64) :
    ((cfg2.win 4).blk t).view.emb (ix2 p q) = ix2 (rowOf2 t p) q := by
  obtain ⟨-, -, -, -, -, -, -, -, e0, e1⟩ := idx_facts2 t
  refine funext fun a => Fin.ext ?_
  match a with
  | ⟨0, _⟩ => show win2_4.index t (0 : Fin 2) * 5000 + 1 * p.val = t.val * 5000 + p.val; rw [e0]; omega
  | ⟨1, _⟩ => show win2_4.index t (1 : Fin 2) * 64 + 1 * q.val = q.val; rw [e1]; omega

/-- What point t writes back is block t of the row softmax of the arrays as the region finds them. -/
theorem flushed2 (c : Dev nD) (t : Fin cfg2.N) :
    (dat2 V c).flushed 4 t = ((cfg2.win 4).blk t).view.read (Elt Ideal)
      (aggSoftmax (φ := .bf16) (V c main_v41) (V c main_v30) (V c main_v16) (V c main_v42)) := by
  show (cfg2.win 4).cut (grid2.coords t) ((dat2 V c).after 4 t) = _
  rw [after2_4]
  unfold out2_4
  rw [View.canon_unit_zero off_zero2]
  simp only [View.ld_unit_zero (S := S5000x64) off_zero2, View.ld_unit_zero (S := S5000x1) off_zero2,
    View.ld_unit_zero (S := S1x64) off_zero2]
  funext j
  obtain ⟨p, q, rfl⟩ : ∃ (p : Fin 5000) (q : Fin 64), j = ix2 p q := ⟨j 0, j 1, eq_ix2 j⟩
  refine (pay2_apply (iblk2 V c 2 t) (iblk2 V c 0 t) (iblk2 V c 1 t) (iblk2 V c 3 t) p q).trans ?_
  show _ = aggSoftmax (φ := .bf16) (V c main_v41) (V c main_v30) (V c main_v16) (V c main_v42)
    (((cfg2.win 4).blk t).view.emb (ix2 p q))
  rw [emb2_4, aggSoftmax_ix2]
  refine congrArg (fun f => rowSoftmax f q) (funext fun k => ?_)
  unfold aggRow
  rw [read2_0, read2_1, read2_2, read2_3]

/-- An index of the array is in point t's block iff each coordinate is in the block's range. -/
theorem mem_blk2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v43).slice (win2_4.rect t)).set ↔ _
  rw [View.set_slice_whole, Rect.mem_set_unit]
  exact Iff.rfl

/-- Every row of the array is in the block of the point its number divided by 5000 names. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 5000, lt_of_lt_of_eq (by omega : (i 0).val / 5000 < 10) N_2.symm⟩
  obtain ⟨-, -, -, -, -, -, -, -, e0, e1⟩ := idx_facts2 t
  have ht : t.val = (i 0).val / 5000 := rfl
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    rw [e0, ht]; omega
  | ⟨1, _⟩ =>
    show win2_4.index t (1 : Fin 2) * 64 ≤ (i 1).val ∧ (i 1).val < win2_4.index t (1 : Fin 2) * 64 + 64
    rw [e1]; omega

/-- THE OUTPUT ARRAY AFTER THE REGION. -/
theorem region2_out (c : Dev nD) :
    (dat2 V c).arrAt 4 cfg2.N
      = aggSoftmax (φ := .bf16) (V c main_v41) (V c main_v30) (V c main_v16) (V c main_v42) :=
  (dat2 V c).arrAt_eq_of_cover 4 _ (fun t _ => flushed2 V c t) cover2

end Cert.KernelIdeal.Regions

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.LibSegmentSum.lean ====
/-
  A segment sum read at one element, over any sizes.

  R segments; N index words, one per row; N values. The accumulating scatter that `jax.ops.segment_sum` of a vector
  lowers to adds value n to element `idx n` of the operand, the word read as a signed integer and NOT clamped: a row
  whose index is outside the operand is dropped. On the extended reals its result at r is the operand there plus the
  sum, over the rows n whose index is r, of value n; no order of accumulation is left in it. (The same for a table of
  rows, segment_sum of a matrix, is the row scatter of LibRowGatherScatter.)
-/
import Idealize.ShloMosaic.PureOps.Ideal
import Idealize.ShloMosaic.Lib.ValueIdx

noncomputable section

open scoped BigOperators

namespace Cert.LibSegmentSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter

variable {R N : Nat} (d : ScatterDims ⟨1, ![R]⟩ ⟨2, ![N, 1]⟩ ⟨1, ![N]⟩)

/-- Where value n lands: at r exactly when row n's index word, read signed, is r. -/
theorem resultIdx?_seg (h1 : d.updateWindowDims = []) (h2 : d.insertedWindowDims = [0])
    (h3 : d.scatterDimsToOperandDims = [0]) (h4 : d.indexVectorDim = 1) {w : Nat}
    (idx : IVec ⟨2, ![N, 1]⟩ w) (n : Fin N) (r : Fin R) :
    d.resultIdx? (ix1 n) idx = some (ix1 r) ↔ (idx (ix2 n (0 : Fin 1))).toInt = (r.val : ℤ) := by
  obtain ⟨uw, iw, sd, iv, wf⟩ := d
  simp only at h1 h2 h3 h4
  subst h1 h2 h3 h4
  have hs0 : ScatterDims.start ⟨[], [0], [0], 1, wf⟩ (ix1 n) idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hw0 : ScatterDims.window ⟨[], [0], [0], 1, wf⟩ (ix1 n) 0 = 0 := by
    unfold ScatterDims.window
    rw [dif_neg (show (0 : Fin 1) ∉ (⟨1, ![R]⟩ : Shape).kept [0] from
      fun h => (of_decide_eq_true (List.mem_filter.1 h).2) (List.mem_singleton.mpr rfl))]
  unfold ScatterDims.resultIdx?
  simp only [Fin.forall_fin_one, hs0, hw0]
  have hc0 : (ix1 r (0 : Fin 1)) = r := rfl
  have hz0 : ((![R] : Fin 1 → ℕ) 0) = R := rfl
  have hr := r.isLt
  by_cases hcond : (0 ≤ (idx (ix2 n (0 : Fin 1))).toInt + ((0 : ℕ) : ℤ) ∧ (idx (ix2 n (0 : Fin 1))).toInt + ((0 : ℕ) : ℤ) < (((![R] : Fin 1 → ℕ) 0 : ℕ) : ℤ))
  · rw [dif_pos hcond]
    simp only [Option.some.injEq, funext_iff, Fin.forall_fin_one, Fin.ext_iff, hs0, hw0, hc0]
    rw [hz0] at hcond
    constructor
    · intro h0; omega
    · intro h0; omega
  · rw [dif_neg hcond]
    rw [hz0] at hcond
    constructor
    · intro h; exact absurd h (by simp)
    · intro h0; exact absurd ⟨by omega, by omega⟩ hcond

/-- THE SEGMENT SUM READ AT r: the operand there plus the values of the rows whose index is r. -/
theorem scatterAdd_seg (h1 : d.updateWindowDims = []) (h2 : d.insertedWindowDims = [0])
    (h3 : d.scatterDimsToOperandDims = [0]) (h4 : d.indexVectorDim = 1) {w : Nat}
    (x : FVec Ideal ⟨1, ![R]⟩ .f32) (idx : IVec ⟨2, ![N, 1]⟩ w)
    (upd : FVec Ideal ⟨1, ![N]⟩ .f32) (r : Fin R) :
    Host.scatterAdd (F := Ideal) d x idx upd (ix1 r)
      = x (ix1 r) + ∑ n : Fin N, (if (idx (ix2 n (0 : Fin 1))).toInt = (r.val : ℤ) then upd (ix1 n) else 0) := by
  simp only [Host.scatterAdd, Ideal.hostScatterAdd_def, Ideal.hostScatterAdd]
  refine congrArg (x (ix1 r) + ·) ?_
  rw [Finset.sum_filter, sum_idx1]
  refine Finset.sum_congr rfl fun n _ => ?_
  simp only [resultIdx?_seg d h1 h2 h3 h4]

end Scatter

end Cert.LibSegmentSum

end
-- ==== Proof.LibSelfLoops.lean ====
/-
  Self-loops appended to a list of edges, read against the list without them; and a vector gathered by index words.

  A graph on R nodes is given as n edges, each a pair of index words (a source and a destination) and a weight. One
  way to give every node a loop onto itself is to lengthen the three lists by R entries, entry n + j being the loop of
  node j: its two index words are the word of j and its weight is one. Whatever is then summed over the edges sent
  to a node r is the sum over the first n entries sent to r plus the one loop of r — a sum over n + R terms cut after
  the n-th, and among the last R terms only the r-th survives. Nothing but the commutative monoid is used.

  The rest is how such lists read at one entry, over any sizes: the two-piece concatenation along the one axis of a
  vector (left piece below the cut, right piece above it), the counting vector 0, 1, 2, …, the words of small numbers
  (a number below 2^31 read signed is itself, is not negative, so the index normalisation "add R when negative"
  leaves it alone, and clamped into [0, R − 1] it is still itself when below R), a vector laid as a column of words,
  and a vector gathered by a column of index words (the rank-one gather: element n of the result is the operand at
  the clamped word n).
-/
import Idealize.ShloMosaic.PureOps.Ideal
import Idealize.ShloMosaic.Lib.ValueIdx
import Idealize.ShloMosaic.Lib.Pipeline.Value
import proofs.«145041_j41059887350098_2_alg».proof.Proof.LibRowGatherScatter

noncomputable section

open scoped BigOperators

namespace Cert.LibSelfLoops

open Idealize.ShloMosaic Idealize.ShloMosaic.ValueIdx Cert.LibRowGatherScatter

/-! ## Sums -/

/-- A sum over a + b terms is the sum over the first a plus the sum over the last b. -/
theorem sum_append {M : Type*} [AddCommMonoid M] {a b t : Nat} (h : a + b = t) (f : Fin t → M) :
    ∑ i, f i = ∑ i : Fin a, f ⟨i.val, by have := i.isLt; omega⟩ + ∑ j : Fin b, f ⟨a + j.val, by have := j.isLt; omega⟩ := by
  subst h
  rw [Fin.sum_univ_add]
  rfl

/-- Of the loops, one per node, only node r's is sent to r. -/
theorem sum_loops {M : Type*} [AddCommMonoid M] {R : Nat} (r : Fin R) (g : Fin R → M) :
    ∑ j : Fin R, (if (j.val : ℤ) = (r.val : ℤ) then g j else 0) = g r := by
  rw [Finset.sum_eq_single r]
  · rw [if_pos rfl]
  · intro j _ hj
    rw [if_neg]
    intro h
    exact hj (Fin.ext (by exact_mod_cast h))
  · intro h
    exact absurd (Finset.mem_univ r) h

/-- THE EDGES WITH THE LOOPS APPENDED, SUMMED AT r: when the first n of the n + R entries are the edges (same
    destination, same term) and entry n + j is node j's loop (destination j, term g j), the terms sent to r sum to
    the edges' terms sent to r plus g r. -/
theorem sum_edges_loops {M : Type*} [AddCommMonoid M] {n R t : Nat} (h : n + R = t) (r : Fin R)
    (dst' : Fin t → ℤ) (f' : Fin t → M) (dst : Fin n → ℤ) (f : Fin n → M) (g : Fin R → M)
    (hd : ∀ e : Fin n, dst' ⟨e.val, by have := e.isLt; omega⟩ = dst e)
    (hf : ∀ e : Fin n, f' ⟨e.val, by have := e.isLt; omega⟩ = f e)
    (hdl : ∀ j : Fin R, dst' ⟨n + j.val, by have := j.isLt; omega⟩ = (j.val : ℤ))
    (hfl : ∀ j : Fin R, f' ⟨n + j.val, by have := j.isLt; omega⟩ = g j) :
    ∑ e : Fin t, (if dst' e = (r.val : ℤ) then f' e else 0)
      = ∑ e : Fin n, (if dst e = (r.val : ℤ) then f e else 0) + g r := by
  rw [sum_append h]
  refine congrArg₂ (· + ·) (Finset.sum_congr rfl fun e _ => ?_) ?_
  · rw [hd e, hf e]
  · rw [← sum_loops r g]
    refine Finset.sum_congr rfl fun j _ => ?_
    rw [hdl j, hfl j]

/-! ## The words of small numbers -/

/-- A number below 2^31, as a 32-bit word read signed, is itself. -/
theorem toInt_word {j : Nat} (h : j < 2 ^ 31) : (BitVec.ofNat 32 j).toInt = (j : ℤ) := by
  rw [BitVec.toInt_eq_toNat_cond, BitVec.toNat_ofNat, Nat.mod_eq_of_lt (by omega)]
  rw [if_pos (by omega)]

/-- The index normalisation — add k when the word is negative — leaves a word that is not negative alone. -/
theorem wrap_nonneg (b k : BitVec 32) (h : 0 ≤ b.toInt) :
    Scalar.select (IntOp.cmpi .slt b 0#32) (IntOp.addi b k) b = b := by
  have hs : b.slt 0#32 = false := by
    rw [BitVec.slt]
    simp only [BitVec.toInt_zero, decide_eq_false_iff_not, not_lt]
    exact h
  simp only [Scalar.select, IntOp.cmpi, hs, BitVec.ofBool_false]
  rw [if_neg (by decide)]

/-- So it leaves the word of a number below 2^31 alone. -/
theorem wrap_word {j : Nat} (h : j < 2 ^ 31) (k : BitVec 32) :
    Scalar.select (IntOp.cmpi .slt (BitVec.ofNat 32 j) 0#32) (IntOp.addi (BitVec.ofNat 32 j) k) (BitVec.ofNat 32 j)
      = BitVec.ofNat 32 j :=
  wrap_nonneg _ k (by rw [toInt_word h]; exact Int.natCast_nonneg j)

/-- The index normalisation of a word: k added when the word, read signed, is negative. -/
def wrapWord (k b : BitVec 32) : BitVec 32 := Scalar.select (IntOp.cmpi .slt b 0#32) (IntOp.addi b k) b

/-- It leaves the word of a number below 2^31 alone. -/
theorem wrapWord_word {j : Nat} (h : j < 2 ^ 31) (k : BitVec 32) : wrapWord k (BitVec.ofNat 32 j) = BitVec.ofNat 32 j :=
  wrap_word h k

/-- The normalisation spelt on a whole array of words — compare with a splat zero, add a splat k, select — read at
    one entry: the normalised word of the entry. -/
theorem wrap_apply {s : Shape} (k : BitVec 32) (h0 hk : (⟨0, ![]⟩ : Shape).BroadcastsInDim s ![]) (v : IVec s 32)
    (i : s.Idx) :
    select (cmpi .slt v (broadcastInDim s ![] h0 (constantI ⟨0, ![]⟩ 32 0#32)))
      (addi v (broadcastInDim s ![] hk (constantI ⟨0, ![]⟩ 32 k))) v i = wrapWord k (v i) := by
  show Scalar.select (IntOp.cmpi .slt (v i) (broadcastInDim s ![] h0 (constantI ⟨0, ![]⟩ 32 0#32) i))
      (IntOp.addi (v i) (broadcastInDim s ![] hk (constantI ⟨0, ![]⟩ 32 k) i)) (v i) = _
  have e0 : broadcastInDim s ![] h0 (constantI ⟨0, ![]⟩ 32 0#32) i = 0#32 :=
    broadcastInDim_apply _ h0 _ i (fun a => a.elim0) (fun a => a.elim0)
  have ek : broadcastInDim s ![] hk (constantI ⟨0, ![]⟩ 32 k) i = k :=
    broadcastInDim_apply _ hk _ i (fun a => a.elim0) (fun a => a.elim0)
  rw [e0, ek]
  rfl

/-- The word of node j, clamped into the R rows, is row j. -/
theorem clampRow_word {R : Nat} (hR : 0 < R) (hR31 : R ≤ 2 ^ 31) (j : Fin R) :
    clampRow R hR (BitVec.ofNat 32 j.val) = j := by
  refine Fin.ext ?_
  show min (BitVec.ofNat 32 j.val).toInt.toNat (R - 1) = j.val
  rw [toInt_word (by have := j.isLt; omega)]
  have := j.isLt
  rw [Int.toNat_natCast]
  omega

/-! ## Vectors read at an entry -/

/-- The counting vector at entry j is the word of j. -/
theorem iota_apply {N : Nat} (j : Fin N) : iotaInDim ⟨1, ![N]⟩ 32 0 (ix1 j) = BitVec.ofNat 32 j.val := rfl

/-- A vector of N entries laid as a column [N, 1], read at (n, 0): entry n. -/
theorem column_apply {α : Type} {N : Nat} (hN : N ≠ 1) (v : (⟨1, ![N]⟩ : Shape).Idx → α)
    (h : (⟨1, ![N]⟩ : Shape).BroadcastsInDim ⟨2, ![N, 1]⟩ ![0]) (n : Fin N) :
    broadcastInDim ⟨2, ![N, 1]⟩ ![0] h v (ix2 n (0 : Fin 1)) = v (ix1 n) := by
  refine broadcastInDim_apply _ h v (ix2 n (0 : Fin 1)) (ix1 n) ?_
  intro a
  match a with
  | ⟨0, _⟩ => show n.val = if N = 1 then 0 else n.val; rw [if_neg hN]

/-- A join of a vector of a entries and one of b entries, read below the cut: the first vector there. -/
theorem join_left {α : Type} {a b t : Nat} (h : Shape.Concatenates [⟨1, ![a]⟩, ⟨1, ![b]⟩] ⟨1, ![t]⟩ 0)
    (u : (⟨1, ![a]⟩ : Shape).Idx → α) (v : (⟨1, ![b]⟩ : Shape).Idx → α) (i : Fin a) (hi : i.val < t) :
    concatenate ⟨1, ![t]⟩ 0 [⟨⟨1, ![a]⟩, u⟩, ⟨⟨1, ![b]⟩, v⟩] h (ix1 ⟨i.val, hi⟩) = u (ix1 i) := by
  refine concatenate_pair_apply_left 0 u v h (ix1 ⟨i.val, hi⟩) rfl (ix1 i) ?_
  intro c
  match c with
  | ⟨0, _⟩ => rfl

/-- The same join read above the cut, at a + j: the second vector at j. -/
theorem join_right {α : Type} {a b t : Nat} (h : Shape.Concatenates [⟨1, ![a]⟩, ⟨1, ![b]⟩] ⟨1, ![t]⟩ 0)
    (u : (⟨1, ![a]⟩ : Shape).Idx → α) (v : (⟨1, ![b]⟩ : Shape).Idx → α) (j : Fin b) (hj : a + j.val < t) :
    concatenate ⟨1, ![t]⟩ 0 [⟨⟨1, ![a]⟩, u⟩, ⟨⟨1, ![b]⟩, v⟩] h (ix1 ⟨a + j.val, hj⟩) = v (ix1 j) := by
  refine concatenate_pair_apply_right 0 u v h (ix1 ⟨a + j.val, hj⟩) rfl rfl (ix1 j) ?_ ?_
  · intro c hc
    match c with
    | ⟨0, _⟩ => exact absurd rfl hc
  · show j.val + a = a + j.val
    omega

/-! ## A vector gathered by a column of index words -/

section Gather

variable {α : Type} {R N : Nat}

/-- The dimension numbers of the gather of a vector [R] by start indices [N, 1] into a vector [N]. -/
abbrev vecGatherDims (R N : Nat)
    (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

theorem gather_vecDims_apply (hR : 0 < R)
    (wf : GatherDims.WF ⟨1, ![R]⟩ ⟨2, ![N, 1]⟩ ⟨1, ![N]⟩ [] [0] [] [0] [] 1 ![1]) {w : Nat}
    (x : (⟨1, ![R]⟩ : Shape).Idx → α) (idx : IVec ⟨2, ![N, 1]⟩ w) (n : Fin N) :
    Host.gather (vecGatherDims R N wf) x idx (ix1 n) = x (ix1 (clampRow R hR (idx (ix2 n (0 : Fin 1))))) := by
  unfold Host.gather
  congr 1
  funext a
  refine Fin.ext ?_
  have e0 : ((vecGatherDims R N wf).operandIdx (ix1 n) idx 0).val = min (idx (ix2 n (0 : Fin 1))).toInt.toNat (R - 1) := by
    show (vecGatherDims R N wf).start (ix1 n) idx 0 + (vecGatherDims R N wf).batchCoord (ix1 n) 0
      + (vecGatherDims R N wf).offCoord (ix1 n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims R N wf).startIndexMap from List.mem_singleton.mpr rfl)]
    have hsi : (vecGatherDims R N wf).siIdx (ix1 n) ⟨List.idxOf (0 : Fin 1) (vecGatherDims R N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  match a with
  | ⟨0, _⟩ => exact e0

/-- THE VECTOR GATHER READ AT n: the operand at the clamped word n. -/
theorem gather_vec (g : GatherDims ⟨1, ![R]⟩ ⟨2, ![N, 1]⟩ ⟨1, ![N]⟩)
    (h1 : g.offsetDims = []) (h2 : g.collapsedSliceDims = [0]) (h3 : g.operandBatchingDims = [])
    (h4 : g.startIndicesBatchingDims = []) (h5 : g.startIndexMap = [0]) (h6 : g.indexVectorDim = 1)
    (h7 : g.sliceSizes = ![1]) (hR : 0 < R) {w : Nat}
    (x : (⟨1, ![R]⟩ : Shape).Idx → α) (idx : IVec ⟨2, ![N, 1]⟩ w) (n : Fin N) :
    Host.gather g x idx (ix1 n) = x (ix1 (clampRow R hR (idx (ix2 n (0 : Fin 1))))) := by
  obtain ⟨od, cd, ob, sb, sm, iv, ss, wf⟩ := g
  simp only at h1 h2 h3 h4 h5 h6 h7
  subst h1 h2 h3 h4 h5 h6 h7
  exact gather_vecDims_apply hR wf x idx n

end Gather

end Cert.LibSelfLoops

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibGcnHost.lean ====
/-
  The host's spelling of a symmetric-normalised graph convolution, read at one entry on the extended reals, over any
  sizes.

  R nodes, n edges given as two vectors of 32-bit index words: row (destinations) and col (sources). An index word is
  normalised before it picks a node to READ (k is added when it is negative) and the normalised word is clamped into
  the table; the word that says where a message is ADDED is used as it stands, and a message whose word names no node
  is dropped. So edge e is sent to node r exactly when its row word, read signed, is r (`selOf`), and then its
  normalised, clamped row word is r too (`srcOf_of_sel`).

  * `invSqrtDeg`: one over the square root of (1 + the number of edges whose normalised row word is the node); it is a
    real number at every node (`isReal_invSqrtDeg`).
  * `edgewiseConv`: gather the source rows of H, scale row e by D (source) · D (destination), add the rows up at their
    destination words, add H · D², add the bias row. At (r, c) it is `LibGcnFactor.aggEdgewise`.
  * `gatheredSum`: gather the source rows of a table G and add them up at their destination words, no weights. At
    (r, c) it is 0 plus the sum of G (source of e, c) over the edges sent to r.
-/
import Idealize.ShloMosaic.PureOps.Ideal
import Idealize.ShloMosaic.PureOps.Ideal.Laws
import Idealize.ShloMosaic.Lib.ValueIdx
import Idealize.ShloMosaic.Lib.Pipeline.Value
import proofs.«145041_j41059887350098_2_alg».proof.Proof.LibRowGatherScatter
import proofs.«145041_j41059887350098_2_alg».proof.Proof.LibSegmentSum
import proofs.«145041_j41059887350098_2_alg».proof.Proof.LibSelfLoops
import proofs.«145041_j41059887350098_2_alg».proof.Proof.LibHostLayout
import proofs.«145041_j41059887350098_2_alg».proof.Proof.LibRealEntries
import proofs.«145041_j41059887350098_2_alg».proof.Proof.LibGcnFactor

noncomputable section

open scoped BigOperators

namespace Cert.LibGcnHost

open Idealize.ShloMosaic Idealize.ShloMosaic.ValueIdx
open Cert.LibRowGatherScatter Cert.LibSegmentSum Cert.LibSelfLoops Cert.LibRealEntries Cert.LibGcnFactor

variable {R n C : Nat}

/-- An array of index words normalised: k added to the negative ones. -/
def wrapVec {s : Shape} (k : BitVec 32) (h0 : (⟨0, ![]⟩ : Shape).BroadcastsInDim s ![]) (v : IVec s 32) : IVec s 32 :=
  select (cmpi .slt v (broadcastInDim s ![] h0 (constantI ⟨0, ![]⟩ 32 0#32)))
    (addi v (broadcastInDim s ![] h0 (constantI ⟨0, ![]⟩ 32 k))) v

theorem wrapVec_apply {s : Shape} (k : BitVec 32) (h0 : (⟨0, ![]⟩ : Shape).BroadcastsInDim s ![]) (v : IVec s 32)
    (i : s.Idx) : wrapVec k h0 v i = wrapWord k (v i) :=
  wrap_apply k h0 h0 v i

/-- The node whose row edge e reads: its word normalised, then clamped into the R rows. -/
def srcOf (hR : 0 < R) (k : BitVec 32) (col : IVec ⟨1, ![n]⟩ 32) (e : Fin n) : Fin R :=
  clampRow R hR (wrapWord k (col (ix1 e)))

/-- Edge e is sent to node r: its word, read signed, is r. -/
def selOf (row : IVec ⟨1, ![n]⟩ 32) (e : Fin n) (r : Fin R) : Prop := (row (ix1 e)).toInt = (r.val : ℤ)

instance (row : IVec ⟨1, ![n]⟩ 32) (e : Fin n) (r : Fin R) : Decidable (selOf row e r) :=
  inferInstanceAs (Decidable ((row (ix1 e)).toInt = (r.val : ℤ)))

/-- An edge sent to r names r when its word is normalised and clamped. -/
theorem srcOf_of_sel (hR : 0 < R) (k : BitVec 32) (row : IVec ⟨1, ![n]⟩ 32) (e : Fin n) (r : Fin R)
    (h : selOf row e r) : srcOf hR k row e = r := by
  unfold selOf at h
  unfold srcOf wrapWord
  rw [wrap_nonneg _ k (by rw [h]; exact Int.natCast_nonneg _)]
  refine Fin.ext ?_
  show min (row (ix1 e)).toInt.toNat (R - 1) = r.val
  rw [h, Int.toNat_natCast]
  have := r.isLt
  omega

/-- The f32 word of one. -/
theorem ofBits_one_f32 : Ideal.ofBits .f32 0x3F800000#32 = 1 := by
  simp [Ideal.ofBits, Ideal.ieee]
  rw [← EReal.coe_mul, ← EReal.coe_one]
  refine congrArg _ ?_
  norm_num

/-- One over the square root of (one plus the number of edges whose normalised word is the node). -/
def invSqrtDeg {F : FTy → Type} [FloatOps F] (sd : ScatterDims ⟨1, ![R]⟩ ⟨2, ![n, 1]⟩ ⟨1, ![n]⟩)
    (hc : (⟨1, ![n]⟩ : Shape).BroadcastsInDim ⟨2, ![n, 1]⟩ ![0])
    (h0 : (⟨0, ![]⟩ : Shape).BroadcastsInDim ⟨1, ![n]⟩ ![]) (hr : (⟨0, ![]⟩ : Shape).BroadcastsInDim ⟨1, ![R]⟩ ![])
    (k : BitVec 32) (row : IVec ⟨1, ![n]⟩ 32) : FVec F ⟨1, ![R]⟩ .f32 :=
  Host.rsqrt (F := F) (addf (Host.scatterAdd (F := F) sd
      (broadcastInDim ⟨1, ![R]⟩ ![] hr (constant (F := F) ⟨0, ![]⟩ .f32 0x00000000#32))
      (broadcastInDim ⟨2, ![n, 1]⟩ ![0] hc (wrapVec k h0 row))
      (broadcastInDim ⟨1, ![n]⟩ ![] h0 (constant (F := F) ⟨0, ![]⟩ .f32 0x3F800000#32)))
    (broadcastInDim ⟨1, ![R]⟩ ![] hr (constant (F := F) ⟨0, ![]⟩ .f32 0x3F800000#32)))

/-- It is a real number at every node: the count is a real number that is not negative, so one plus it is positive. -/
theorem isReal_invSqrtDeg (hn : n ≠ 1) (sd : ScatterDims ⟨1, ![R]⟩ ⟨2, ![n, 1]⟩ ⟨1, ![n]⟩)
    (s1 : sd.updateWindowDims = []) (s2 : sd.insertedWindowDims = [0])
    (s3 : sd.scatterDimsToOperandDims = [0]) (s4 : sd.indexVectorDim = 1)
    (hc : (⟨1, ![n]⟩ : Shape).BroadcastsInDim ⟨2, ![n, 1]⟩ ![0])
    (h0 : (⟨0, ![]⟩ : Shape).BroadcastsInDim ⟨1, ![n]⟩ ![]) (hr : (⟨0, ![]⟩ : Shape).BroadcastsInDim ⟨1, ![R]⟩ ![])
    (k : BitVec 32) (row : IVec ⟨1, ![n]⟩ 32) (r : Fin R) :
    IsReal (invSqrtDeg (F := Ideal) sd hc h0 hr k row (ix1 r)) := by
  unfold invSqrtDeg
  have e : ∀ v : FVec Ideal ⟨1, ![R]⟩ .f32, Host.rsqrt (F := Ideal) v (ix1 r) = Ideal.rsqrt (v (ix1 r)) := fun v => rfl
  rw [e, addf_apply, scatterAdd_seg sd s1 s2 s3 s4, Cert.HostLayout.scalar_apply, Cert.HostLayout.scalar_apply, constant_apply, constant_apply,
    Ideal.ofBits_zero_f32, ofBits_one_f32, zero_add]
  have hs : (∑ e : Fin n, (if (broadcastInDim ⟨2, ![n, 1]⟩ ![0] hc (wrapVec k h0 row) (ix2 e (0 : Fin 1))).toInt = (r.val : ℤ)
        then broadcastInDim ⟨1, ![n]⟩ ![] h0 (constant (F := Ideal) ⟨0, ![]⟩ .f32 0x3F800000#32) (ix1 e) else 0))
      = ((∑ e : Fin n, (if (broadcastInDim ⟨2, ![n, 1]⟩ ![0] hc (wrapVec k h0 row) (ix2 e (0 : Fin 1))).toInt = (r.val : ℤ)
        then (1 : ℝ) else 0) : ℝ) : EReal) := by
    rw [coe_sum]
    refine Finset.sum_congr rfl fun e _ => ?_
    split_ifs
    · rw [Cert.HostLayout.scalar_apply, constant_apply, ofBits_one_f32]; rfl
    · exact EReal.coe_zero.symm
  rw [hs]
  have hpos : 0 < (∑ e : Fin n, (if (broadcastInDim ⟨2, ![n, 1]⟩ ![0] hc (wrapVec k h0 row) (ix2 e (0 : Fin 1))).toInt = (r.val : ℤ)
        then (1 : ℝ) else 0)) + 1 :=
    add_pos_of_nonneg_of_pos (Finset.sum_nonneg fun e _ => by split_ifs <;> norm_num) one_pos
  generalize (∑ e : Fin n, (if (broadcastInDim ⟨2, ![n, 1]⟩ ![0] hc (wrapVec k h0 row) (ix2 e (0 : Fin 1))).toInt = (r.val : ℤ)
        then (1 : ℝ) else 0)) = S at hpos ⊢
  rw [show ((S : ℝ) : EReal) + 1 = ((S + 1 : ℝ) : EReal) from by rw [EReal.coe_add, EReal.coe_one], Ideal.rsqrt_coe,
    if_neg (not_lt.mpr hpos.le), if_neg hpos.ne']
  exact isReal_coe _

/-- The edgewise layer as the host spells it. -/
def edgewiseConv {F : FTy → Type} [FloatOps F] (gv : GatherDims ⟨1, ![R]⟩ ⟨2, ![n, 1]⟩ ⟨1, ![n]⟩)
    (gr : GatherDims ⟨2, ![R, C]⟩ ⟨2, ![n, 1]⟩ ⟨2, ![n, C]⟩) (sd : ScatterDims ⟨2, ![R, C]⟩ ⟨2, ![n, 1]⟩ ⟨2, ![n, C]⟩)
    (hc : (⟨1, ![n]⟩ : Shape).BroadcastsInDim ⟨2, ![n, 1]⟩ ![0])
    (hw : (⟨2, ![n, 1]⟩ : Shape).BroadcastsInDim ⟨2, ![n, C]⟩ ![0, 1])
    (h0 : (⟨0, ![]⟩ : Shape).BroadcastsInDim ⟨1, ![n]⟩ ![])
    (hz : (⟨0, ![]⟩ : Shape).BroadcastsInDim ⟨2, ![R, C]⟩ ![])
    (hd1 : (⟨1, ![R]⟩ : Shape).BroadcastsInDim ⟨2, ![R, 1]⟩ ![0])
    (hd2 : (⟨2, ![R, 1]⟩ : Shape).BroadcastsInDim ⟨2, ![R, C]⟩ ![0, 1])
    (hb1 : (⟨1, ![C]⟩ : Shape).BroadcastsInDim ⟨2, ![1, C]⟩ ![1])
    (hb2 : (⟨2, ![1, C]⟩ : Shape).BroadcastsInDim ⟨2, ![R, C]⟩ ![0, 1])
    (k : BitVec 32) (H : FVec F ⟨2, ![R, C]⟩ .f32) (D : FVec F ⟨1, ![R]⟩ .f32) (row col : IVec ⟨1, ![n]⟩ 32)
    (b : FVec F ⟨1, ![C]⟩ .f32) : FVec F ⟨2, ![R, C]⟩ .f32 :=
  addf (addf
      (Host.scatterAdd (F := F) sd (broadcastInDim ⟨2, ![R, C]⟩ ![] hz (constant (F := F) ⟨0, ![]⟩ .f32 0x00000000#32))
        (broadcastInDim ⟨2, ![n, 1]⟩ ![0] hc row)
        (mulf (Host.gather gr H (broadcastInDim ⟨2, ![n, 1]⟩ ![0] hc (wrapVec k h0 col)))
          (broadcastInDim ⟨2, ![n, C]⟩ ![0, 1] hw (broadcastInDim ⟨2, ![n, 1]⟩ ![0] hc
            (mulf (Host.gather gv D (broadcastInDim ⟨2, ![n, 1]⟩ ![0] hc (wrapVec k h0 col)))
              (Host.gather gv D (broadcastInDim ⟨2, ![n, 1]⟩ ![0] hc (wrapVec k h0 row))))))))
      (mulf H (broadcastInDim ⟨2, ![R, C]⟩ ![0, 1] hd2 (broadcastInDim ⟨2, ![R, 1]⟩ ![0] hd1 (mulf D D)))))
    (broadcastInDim ⟨2, ![R, C]⟩ ![0, 1] hb2 (broadcastInDim ⟨2, ![1, C]⟩ ![1] hb1 b))

/-- THE EDGEWISE LAYER AT (r, c). -/
theorem edgewiseConv_apply (hR : 0 < R) (hR1 : R ≠ 1) (hn : n ≠ 1)
    (gv : GatherDims ⟨1, ![R]⟩ ⟨2, ![n, 1]⟩ ⟨1, ![n]⟩)
    (gr : GatherDims ⟨2, ![R, C]⟩ ⟨2, ![n, 1]⟩ ⟨2, ![n, C]⟩) (sd : ScatterDims ⟨2, ![R, C]⟩ ⟨2, ![n, 1]⟩ ⟨2, ![n, C]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (r1 : gr.offsetDims = [1]) (r2 : gr.collapsedSliceDims = [0]) (r3 : gr.operandBatchingDims = [])
    (r4 : gr.startIndicesBatchingDims = []) (r5 : gr.startIndexMap = [0]) (r6 : gr.indexVectorDim = 1)
    (r7 : gr.sliceSizes = ![1, C])
    (s1 : sd.updateWindowDims = [1]) (s2 : sd.insertedWindowDims = [0])
    (s3 : sd.scatterDimsToOperandDims = [0]) (s4 : sd.indexVectorDim = 1)
    (hc : (⟨1, ![n]⟩ : Shape).BroadcastsInDim ⟨2, ![n, 1]⟩ ![0])
    (hw : (⟨2, ![n, 1]⟩ : Shape).BroadcastsInDim ⟨2, ![n, C]⟩ ![0, 1])
    (h0 : (⟨0, ![]⟩ : Shape).BroadcastsInDim ⟨1, ![n]⟩ ![])
    (hz : (⟨0, ![]⟩ : Shape).BroadcastsInDim ⟨2, ![R, C]⟩ ![])
    (hd1 : (⟨1, ![R]⟩ : Shape).BroadcastsInDim ⟨2, ![R, 1]⟩ ![0])
    (hd2 : (⟨2, ![R, 1]⟩ : Shape).BroadcastsInDim ⟨2, ![R, C]⟩ ![0, 1])
    (hb1 : (⟨1, ![C]⟩ : Shape).BroadcastsInDim ⟨2, ![1, C]⟩ ![1])
    (hb2 : (⟨2, ![1, C]⟩ : Shape).BroadcastsInDim ⟨2, ![R, C]⟩ ![0, 1])
    (k : BitVec 32) (H : FVec Ideal ⟨2, ![R, C]⟩ .f32) (D : FVec Ideal ⟨1, ![R]⟩ .f32) (row col : IVec ⟨1, ![n]⟩ 32)
    (b : FVec Ideal ⟨1, ![C]⟩ .f32) (r : Fin R) (c : Fin C) :
    edgewiseConv (F := Ideal) gv gr sd hc hw h0 hz hd1 hd2 hb1 hb2 k H D row col b (ix2 r c)
      = aggEdgewise (selOf row) (srcOf hR k col) (srcOf hR k row) (fun ρ => D (ix1 ρ)) (fun ρ γ => H (ix2 ρ γ))
          (fun γ => b (ix1 γ)) r c := by
  unfold edgewiseConv aggEdgewise
  rw [addf_apply, addf_apply, mulf_apply, scatterAdd_rows sd s1 s2 s3 s4, Cert.HostLayout.scalar_apply, constant_apply,
    Ideal.ofBits_zero_f32, bcast_col_apply hR1 _ hd1 hd2, mulf_apply, Cert.HostLayout.biasRow_apply]
  refine congrArg (fun S => ((0 : EReal) + S) + H (ix2 r c) * (D (ix1 r) * D (ix1 r)) + b (ix1 c)) ?_
  refine Finset.sum_congr rfl fun e _ => ?_
  rw [column_apply hn, mulf_apply, gather_rows gr r1 r2 r3 r4 r5 r6 r7 hR, bcast_col_apply hn _ hc hw, mulf_apply,
    gather_vec gv v1 v2 v3 v4 v5 v6 v7 hR, gather_vec gv v1 v2 v3 v4 v5 v6 v7 hR, column_apply hn, column_apply hn,
    wrapVec_apply, wrapVec_apply]
  rfl

/-- Gather the source rows of G and add them up at their destination words. -/
def gatheredSum {F : FTy → Type} [FloatOps F] {φ : FTy} (hφ : φ.bits < FTy.bits .f32)
    (gr : GatherDims ⟨2, ![R, C]⟩ ⟨2, ![n, 1]⟩ ⟨2, ![n, C]⟩) (sd : ScatterDims ⟨2, ![R, C]⟩ ⟨2, ![n, 1]⟩ ⟨2, ![n, C]⟩)
    (hc : (⟨1, ![n]⟩ : Shape).BroadcastsInDim ⟨2, ![n, 1]⟩ ![0])
    (h0 : (⟨0, ![]⟩ : Shape).BroadcastsInDim ⟨1, ![n]⟩ ![])
    (hz : (⟨0, ![]⟩ : Shape).BroadcastsInDim ⟨2, ![R, C]⟩ ![])
    (k : BitVec 32) (G : FVec F ⟨2, ![R, C]⟩ φ) (row col : IVec ⟨1, ![n]⟩ 32) : FVec F ⟨2, ![R, C]⟩ .f32 :=
  Host.scatterAdd (F := F) sd (broadcastInDim ⟨2, ![R, C]⟩ ![] hz (constant (F := F) ⟨0, ![]⟩ .f32 0x00000000#32))
    (broadcastInDim ⟨2, ![n, 1]⟩ ![0] hc row)
    (extf .f32 (Host.gather gr G (broadcastInDim ⟨2, ![n, 1]⟩ ![0] hc (wrapVec k h0 col))) hφ)

/-- THE UNWEIGHTED SUM AT (r, c). -/
theorem gatheredSum_apply (hR : 0 < R) (hn : n ≠ 1) {φ : FTy} (hφ : φ.bits < FTy.bits .f32)
    (gr : GatherDims ⟨2, ![R, C]⟩ ⟨2, ![n, 1]⟩ ⟨2, ![n, C]⟩) (sd : ScatterDims ⟨2, ![R, C]⟩ ⟨2, ![n, 1]⟩ ⟨2, ![n, C]⟩)
    (r1 : gr.offsetDims = [1]) (r2 : gr.collapsedSliceDims = [0]) (r3 : gr.operandBatchingDims = [])
    (r4 : gr.startIndicesBatchingDims = []) (r5 : gr.startIndexMap = [0]) (r6 : gr.indexVectorDim = 1)
    (r7 : gr.sliceSizes = ![1, C])
    (s1 : sd.updateWindowDims = [1]) (s2 : sd.insertedWindowDims = [0])
    (s3 : sd.scatterDimsToOperandDims = [0]) (s4 : sd.indexVectorDim = 1)
    (hc : (⟨1, ![n]⟩ : Shape).BroadcastsInDim ⟨2, ![n, 1]⟩ ![0])
    (h0 : (⟨0, ![]⟩ : Shape).BroadcastsInDim ⟨1, ![n]⟩ ![])
    (hz : (⟨0, ![]⟩ : Shape).BroadcastsInDim ⟨2, ![R, C]⟩ ![])
    (k : BitVec 32) (G : FVec Ideal ⟨2, ![R, C]⟩ φ) (row col : IVec ⟨1, ![n]⟩ 32) (r : Fin R) (c : Fin C) :
    gatheredSum (F := Ideal) hφ gr sd hc h0 hz k G row col (ix2 r c)
      = 0 + ∑ e : Fin n, if selOf row e r then G (ix2 (srcOf hR k col e) c) else 0 := by
  unfold gatheredSum
  rw [scatterAdd_rows sd s1 s2 s3 s4, Cert.HostLayout.scalar_apply, constant_apply, Ideal.ofBits_zero_f32]
  refine congrArg ((0 : EReal) + ·) (Finset.sum_congr rfl fun e _ => ?_)
  rw [column_apply hn, extf_apply, gather_rows gr r1 r2 r3 r4 r5 r6 r7 hR, column_apply hn, wrapVec_apply]
  rfl

end Cert.LibGcnHost

end
-- ==== Proof.KernelChain.lean ====
/-
  The idealized kernel's result as one function of its arguments.

  Between the launch and the return the program passes six boundaries: host operations, a pipelined region, host
  operations, a region, host operations, a region. The host stretches compute, from the edge list, the two vectors of
  index words, the scale column (one over the square root of one plus the in-degree), and before the second and third
  regions the unweighted sums of the gathered neighbour rows; each region's output array is the function of its input
  arrays that its blocks compute. Reading every buffer a later stage needs back through the boundaries gives the
  result array: the row softmax of the second aggregated table.
-/
import proofs.«145041_j41059887350098_2_alg».proof.Proof.Gen.KernelIdeal.Frame
import proofs.«145041_j41059887350098_2_alg».proof.Proof.KernelRun
import proofs.«145041_j41059887350098_2_alg».proof.Proof.Region0
import proofs.«145041_j41059887350098_2_alg».proof.Proof.Region1
import proofs.«145041_j41059887350098_2_alg».proof.Proof.Region2
import proofs.«145041_j41059887350098_2_alg».proof.Proof.LibGcnHost
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Chain

open Idealize.ShloMosaic Idealize.ShloMosaic.TcCoe Idealize.ShloMosaic.ValueIdx Idealize.SL.Sem
open Idealize.ShloMosaic.StableHlo
open Cert.KernelIdeal Cert.KernelIdeal.Gen Cert.KernelIdeal.Regions Cert.LibGcnHost

/-! ## The stages as functions of the arguments -/

/-- The source words: row 0 of the edge list. -/
def srcWords (ei : IVec S2x800000 32) : IVec S800000 32 :=
  shapeCast S800000 (extractStridedSlice S1x800000 ![0, 0] ei slices_S2x800000_S1x800000_0_0) shapeCasts_S1x800000_S800000

/-- The destination words: row 1 of the edge list. -/
def dstWords (ei : IVec S2x800000 32) : IVec S800000 32 :=
  shapeCast S800000 (extractStridedSlice S1x800000 ![1, 0] ei slices_S2x800000_S1x800000_1_0) shapeCasts_S1x800000_S800000

/-- One scale per node. -/
def scaleVec (ei : IVec S2x800000 32) : FVec Ideal S50000 .f32 :=
  invSqrtDeg (F := Ideal) scatter_S50000_S800000x1_S800000_n_0_0_1 bcast_S800000_S800000x1_0 bcast_S_S800000
    bcast_S_S50000 50000#32 (dstWords ei)

/-- The scales as a column. -/
def scaleCol (ei : IVec S2x800000 32) : FVec Ideal S50000x1 .f32 :=
  shapeCast S50000x1 (scaleVec ei) shapeCasts_S50000_S50000x1

/-- The first projected, scaled table. -/
def table1 (x : FVec Ideal S50000x128 .f32) (ei : IVec S2x800000 32) (w1 : FVec Ideal S128x128 .f32) :
    FVec Ideal S50000x128 .bf16 :=
  projScaled (φ := .bf16) x w1 (scaleCol ei)

/-- The neighbour sums of the first table. -/
def sums1 (x : FVec Ideal S50000x128 .f32) (ei : IVec S2x800000 32) (w1 : FVec Ideal S128x128 .f32) :
    FVec Ideal S50000x128 .f32 :=
  gatheredSum (F := Ideal) bitsLt_bf16_f32 gather_S50000x128_S800000x1_S800000x128_1_0_n_n_0_1_1128
    scatter_S50000x128_S800000x1_S800000x128_1_0_0_1 bcast_S800000_S800000x1_0 bcast_S_S800000 bcast_S_S50000x128
    50000#32 (table1 x ei w1) (dstWords ei) (srcWords ei)

/-- The second projected, scaled table. -/
def table2 (x : FVec Ideal S50000x128 .f32) (ei : IVec S2x800000 32) (w1 : FVec Ideal S128x128 .f32)
    (b1 : FVec Ideal S128 .f32) (w2 : FVec Ideal S128x64 .f32) : FVec Ideal S50000x64 .bf16 :=
  aggProjScaled (φ := .bf16) (ψ := .bf16) (sums1 x ei w1) (table1 x ei w1) (scaleCol ei)
    (shapeCast S1x128 b1 shapeCasts_S128_S1x128) w2

/-- The neighbour sums of the second table. -/
def sums2 (x : FVec Ideal S50000x128 .f32) (ei : IVec S2x800000 32) (w1 : FVec Ideal S128x128 .f32)
    (b1 : FVec Ideal S128 .f32) (w2 : FVec Ideal S128x64 .f32) : FVec Ideal S50000x64 .f32 :=
  gatheredSum (F := Ideal) bitsLt_bf16_f32 gather_S50000x64_S800000x1_S800000x64_1_0_n_n_0_1_164
    scatter_S50000x64_S800000x1_S800000x64_1_0_0_1 bcast_S800000_S800000x1_0 bcast_S_S800000 bcast_S_S50000x64
    50000#32 (table2 x ei w1 b1 w2) (dstWords ei) (srcWords ei)

/-- The result: the row softmax of the second aggregated table. -/
def result (x : FVec Ideal S50000x128 .f32) (ei : IVec S2x800000 32) (w1 : FVec Ideal S128x128 .f32)
    (b1 : FVec Ideal S128 .f32) (w2 : FVec Ideal S128x64 .f32) (b2 : FVec Ideal S64 .f32) : FVec Ideal S50000x64 .f32 :=
  aggSoftmax (φ := .bf16) (sums2 x ei w1 b1 w2) (table2 x ei w1 b1 w2) (scaleCol ei)
    (shapeCast S1x64 b2 shapeCasts_S64_S1x64)

/-! ## The buffers at each boundary -/

variable (m : (ℓ : Loc nD τ sig) → Buf (Elt Ideal) ℓ) (ρ : Dev nD → PrngReg) (c : Dev nD)

/-- The launch contents of the arguments, typed. -/
abbrev X : FVec Ideal S50000x128 .f32 := m ((c : Thread nD τ).loc main_arg0)
abbrev EI : IVec S2x800000 32 := m ((c : Thread nD τ).loc main_arg1)
abbrev Wa : FVec Ideal S128x128 .f32 := m ((c : Thread nD τ).loc main_arg2)
abbrev Ba : FVec Ideal S128 .f32 := m ((c : Thread nD τ).loc main_arg3)
abbrev Wb : FVec Ideal S128x64 .f32 := m ((c : Thread nD τ).loc main_arg4)
abbrev Bb : FVec Ideal S64 .f32 := m ((c : Thread nD τ).loc main_arg5)

/-! ### After the first host stretch -/

theorem w1_arg0 : (W1 m ρ c (Proc.devRef .tc main_arg0) : FVec Ideal S50000x128 .f32) = X m c := by
  show StableHlo.after hostOps0 (W0 m ρ c) (Proc.devRef .tc main_arg0) = _
  after_results
theorem w1_arg2 : (W1 m ρ c (Proc.devRef .tc main_arg2) : FVec Ideal S128x128 .f32) = Wa m c := by
  show StableHlo.after hostOps0 (W0 m ρ c) (Proc.devRef .tc main_arg2) = _
  after_results
theorem w1_arg3 : (W1 m ρ c (Proc.devRef .tc main_arg3) : FVec Ideal S128 .f32) = Ba m c := by
  show StableHlo.after hostOps0 (W0 m ρ c) (Proc.devRef .tc main_arg3) = _
  after_results
theorem w1_arg4 : (W1 m ρ c (Proc.devRef .tc main_arg4) : FVec Ideal S128x64 .f32) = Wb m c := by
  show StableHlo.after hostOps0 (W0 m ρ c) (Proc.devRef .tc main_arg4) = _
  after_results
theorem w1_arg5 : (W1 m ρ c (Proc.devRef .tc main_arg5) : FVec Ideal S64 .f32) = Bb m c := by
  show StableHlo.after hostOps0 (W0 m ρ c) (Proc.devRef .tc main_arg5) = _
  after_results
theorem w1_v1 : (W1 m ρ c (Proc.devRef .tc main_v1) : IVec S800000 32) = srcWords (EI m c) := by
  show StableHlo.after hostOps0 (W0 m ρ c) (Proc.devRef .tc main_v1) = _
  after_results; rfl
theorem w1_v3 : (W1 m ρ c (Proc.devRef .tc main_v3) : IVec S800000 32) = dstWords (EI m c) := by
  show StableHlo.after hostOps0 (W0 m ρ c) (Proc.devRef .tc main_v3) = _
  after_results; rfl
theorem w1_v16 : (W1 m ρ c (Proc.devRef .tc main_v16) : FVec Ideal S50000x1 .f32) = scaleCol (EI m c) := by
  show StableHlo.after hostOps0 (W0 m ρ c) (Proc.devRef .tc main_v16) = _
  after_results; rfl

/-! ### After the first region -/

theorem eq3 {α β γ δ : Type} (f : α → β → γ → δ) {a a' : α} {b b' : β} {d d' : γ} (ha : a = a') (hb : b = b')
    (hd : d = d') : f a b d = f a' b' d' := by subst ha hb hd; rfl
theorem eq4 {α β γ δ ε : Type} (f : α → β → γ → δ → ε) {a a' : α} {b b' : β} {d d' : γ} {e e' : δ} (ha : a = a')
    (hb : b = b') (hd : d = d') (he : e = e') : f a b d e = f a' b' d' e' := by subst ha hb hd he; rfl
theorem eq5 {α β γ δ ε ζ : Type} (f : α → β → γ → δ → ε → ζ) {a a' : α} {b b' : β} {d d' : γ} {e e' : δ} {g g' : ε}
    (ha : a = a') (hb : b = b') (hd : d = d') (he : e = e') (hg : g = g') : f a b d e g = f a' b' d' e' g' := by
  subst ha hb hd he hg; rfl

theorem w2_v17 : (W2 m ρ c (Proc.devRef .tc main_v17) : FVec Ideal S50000x128 .bf16)
    = table1 (X m c) (EI m c) (Wa m c) :=
  (W2_arr m ρ c 3).trans ((region0_out (V1 m ρ) c).trans
    (eq3 (projScaled (φ := .bf16)) (w1_arg0 m ρ c) (w1_arg2 m ρ c) (w1_v16 m ρ c)))
theorem w2_v16 : (W2 m ρ c (Proc.devRef .tc main_v16) : FVec Ideal S50000x1 .f32) = scaleCol (EI m c) :=
  (W2_arr m ρ c 2).trans (((dat0 (V1 m ρ) c).arrAt_in 2 rfl _).trans ((A_eq0 (V1 m ρ) c 2).trans (w1_v16 m ρ c)))
theorem w2_v1 : (W2 m ρ c (Proc.devRef .tc main_v1) : IVec S800000 32) = srcWords (EI m c) :=
  (W2_of_ne m ρ c main_v1 (by decide)).trans (w1_v1 m ρ c)
theorem w2_v3 : (W2 m ρ c (Proc.devRef .tc main_v3) : IVec S800000 32) = dstWords (EI m c) :=
  (W2_of_ne m ρ c main_v3 (by decide)).trans (w1_v3 m ρ c)
theorem w2_arg3 : (W2 m ρ c (Proc.devRef .tc main_arg3) : FVec Ideal S128 .f32) = Ba m c :=
  (W2_of_ne m ρ c main_arg3 (by decide)).trans (w1_arg3 m ρ c)
theorem w2_arg4 : (W2 m ρ c (Proc.devRef .tc main_arg4) : FVec Ideal S128x64 .f32) = Wb m c :=
  (W2_of_ne m ρ c main_arg4 (by decide)).trans (w1_arg4 m ρ c)
theorem w2_arg5 : (W2 m ρ c (Proc.devRef .tc main_arg5) : FVec Ideal S64 .f32) = Bb m c :=
  (W2_of_ne m ρ c main_arg5 (by decide)).trans (w1_arg5 m ρ c)

/-! ### After the second host stretch -/

theorem w3_v28 : (W3 m ρ c (Proc.devRef .tc main_v28) : FVec Ideal S50000x128 .f32)
    = sums1 (X m c) (EI m c) (Wa m c) := by
  show StableHlo.after hostOps1 (W2 m ρ c) (Proc.devRef .tc main_v28) = _
  after_results
  rw [w2_v17, w2_v3, w2_v1]
  rfl
theorem w3_v29 : (W3 m ρ c (Proc.devRef .tc main_v29) : FVec Ideal S1x128 .f32)
    = shapeCast S1x128 (Ba m c) shapeCasts_S128_S1x128 := by
  show StableHlo.after hostOps1 (W2 m ρ c) (Proc.devRef .tc main_v29) = _
  after_results
  rw [w2_arg3]
  rfl
theorem w3_v17 : (W3 m ρ c (Proc.devRef .tc main_v17) : FVec Ideal S50000x128 .bf16)
    = table1 (X m c) (EI m c) (Wa m c) := by
  show StableHlo.after hostOps1 (W2 m ρ c) (Proc.devRef .tc main_v17) = _
  after_results
  exact w2_v17 m ρ c
theorem w3_v16 : (W3 m ρ c (Proc.devRef .tc main_v16) : FVec Ideal S50000x1 .f32) = scaleCol (EI m c) := by
  show StableHlo.after hostOps1 (W2 m ρ c) (Proc.devRef .tc main_v16) = _
  after_results
  exact w2_v16 m ρ c
theorem w3_v1 : (W3 m ρ c (Proc.devRef .tc main_v1) : IVec S800000 32) = srcWords (EI m c) := by
  show StableHlo.after hostOps1 (W2 m ρ c) (Proc.devRef .tc main_v1) = _
  after_results
  exact w2_v1 m ρ c
theorem w3_v3 : (W3 m ρ c (Proc.devRef .tc main_v3) : IVec S800000 32) = dstWords (EI m c) := by
  show StableHlo.after hostOps1 (W2 m ρ c) (Proc.devRef .tc main_v3) = _
  after_results
  exact w2_v3 m ρ c
theorem w3_arg4 : (W3 m ρ c (Proc.devRef .tc main_arg4) : FVec Ideal S128x64 .f32) = Wb m c := by
  show StableHlo.after hostOps1 (W2 m ρ c) (Proc.devRef .tc main_arg4) = _
  after_results
  exact w2_arg4 m ρ c
theorem w3_arg5 : (W3 m ρ c (Proc.devRef .tc main_arg5) : FVec Ideal S64 .f32) = Bb m c := by
  show StableHlo.after hostOps1 (W2 m ρ c) (Proc.devRef .tc main_arg5) = _
  after_results
  exact w2_arg5 m ρ c

/-! ### After the second region -/

theorem w4_v30 : (W4 m ρ c (Proc.devRef .tc main_v30) : FVec Ideal S50000x64 .bf16)
    = table2 (X m c) (EI m c) (Wa m c) (Ba m c) (Wb m c) :=
  (W4_arr m ρ c 5).trans ((region1_out (V3 m ρ) c).trans
    (eq5 (aggProjScaled (φ := .bf16) (ψ := .bf16)) (w3_v28 m ρ c) (w3_v17 m ρ c) (w3_v16 m ρ c) (w3_v29 m ρ c)
      (w3_arg4 m ρ c)))
theorem w4_v16 : (W4 m ρ c (Proc.devRef .tc main_v16) : FVec Ideal S50000x1 .f32) = scaleCol (EI m c) :=
  (W4_arr m ρ c 2).trans (((dat1 (V3 m ρ) c).arrAt_in 2 rfl _).trans ((A_eq1 (V3 m ρ) c 2).trans (w3_v16 m ρ c)))
theorem w4_v1 : (W4 m ρ c (Proc.devRef .tc main_v1) : IVec S800000 32) = srcWords (EI m c) :=
  (W4_of_ne m ρ c main_v1 (by decide)).trans (w3_v1 m ρ c)
theorem w4_v3 : (W4 m ρ c (Proc.devRef .tc main_v3) : IVec S800000 32) = dstWords (EI m c) :=
  (W4_of_ne m ρ c main_v3 (by decide)).trans (w3_v3 m ρ c)
theorem w4_arg5 : (W4 m ρ c (Proc.devRef .tc main_arg5) : FVec Ideal S64 .f32) = Bb m c :=
  (W4_of_ne m ρ c main_arg5 (by decide)).trans (w3_arg5 m ρ c)

/-! ### After the third host stretch -/

theorem w5_v41 : (W5 m ρ c (Proc.devRef .tc main_v41) : FVec Ideal S50000x64 .f32)
    = sums2 (X m c) (EI m c) (Wa m c) (Ba m c) (Wb m c) := by
  show StableHlo.after hostOps2 (W4 m ρ c) (Proc.devRef .tc main_v41) = _
  after_results
  rw [w4_v30, w4_v3, w4_v1]
  rfl
theorem w5_v42 : (W5 m ρ c (Proc.devRef .tc main_v42) : FVec Ideal S1x64 .f32)
    = shapeCast S1x64 (Bb m c) shapeCasts_S64_S1x64 := by
  show StableHlo.after hostOps2 (W4 m ρ c) (Proc.devRef .tc main_v42) = _
  after_results
  rw [w4_arg5]
  rfl
theorem w5_v30 : (W5 m ρ c (Proc.devRef .tc main_v30) : FVec Ideal S50000x64 .bf16)
    = table2 (X m c) (EI m c) (Wa m c) (Ba m c) (Wb m c) := by
  show StableHlo.after hostOps2 (W4 m ρ c) (Proc.devRef .tc main_v30) = _
  after_results
  exact w4_v30 m ρ c
theorem w5_v16 : (W5 m ρ c (Proc.devRef .tc main_v16) : FVec Ideal S50000x1 .f32) = scaleCol (EI m c) := by
  show StableHlo.after hostOps2 (W4 m ρ c) (Proc.devRef .tc main_v16) = _
  after_results
  exact w4_v16 m ρ c

/-! ### The result -/

/-- THE RESULT BUFFER AT THE LAST BOUNDARY is the result function of the launch contents of the arguments. -/
theorem boundary_eq_result : (W6 m ρ c (Proc.devRef .tc main_v43) : FVec Ideal S50000x64 .f32)
    = result (X m c) (EI m c) (Wa m c) (Ba m c) (Wb m c) (Bb m c) :=
  (Cert.KernelIdeal.RunValue.boundary_result m ρ c).trans ((region2_out (V5 m ρ) c).trans
    (eq4 (aggSoftmax (φ := .bf16)) (w5_v41 m ρ c) (w5_v30 m ρ c) (w5_v16 m ρ c) (w5_v42 m ρ c)))

end Cert.KernelIdeal.Chain

end
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.Finite.lean ====
/-
  The precondition read back: when the printed predicate is all ones, every entry of the features, of the two weight
  tables and of the two bias vectors is a real number. The predicate is a conjunction of five "all entries have an
  absolute value below plus infinity"; each conjunct gives that comparison at every index, and an extended real whose
  absolute value is below plus infinity is neither infinity.
-/
import proofs.«145041_j41059887350098_2_alg».proof.Pre_finite_inputs
import proofs.«145041_j41059887350098_2_alg».proof.Proof.Gen.Pre_finite_inputs
import proofs.«145041_j41059887350098_2_alg».proof.Proof.LibSingletonSoftmax
import proofs.«145041_j41059887350098_2_alg».proof.Proof.LibRealEntries
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs Cert.Pre_finite_inputs.Gen Cert.LibRealEntries

instance : Subsingleton S_.Idx := ⟨fun a b => funext fun d => d.elim0⟩

/-- One conjunct: a reduce-and of "|a i| < +∞" that is one makes every entry real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : IsReal (a i) :=
  SingletonSoftmax.real_of_abs_lt_top (a i) (Host.reduce_andi_all _ _ hr hu ValueIdx.ix0 e i)

/-- THE PRECONDITION, READ BACK. -/
theorem entries_real (a0 : FVec Ideal S50000x128 .f32) (a1 : IVec S2x800000 32) (a2 : FVec Ideal S128x128 .f32)
    (a3 : FVec Ideal S128 .f32) (a4 : FVec Ideal S128x64 .f32) (a5 : FVec Ideal S64 .f32)
    (h : fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all a0 _ _ _ h1, real_of_all a2 _ _ _ h2, real_of_all a3 _ _ _ h3, real_of_all a4 _ _ _ h4,
    real_of_all a5 _ _ _ h5⟩

end Cert.Pre_finite_inputs.Finite

end
-- ==== Proof.KernelEntry.lean ====
/-
  The idealized kernel's result read at one entry.

  Each of the two tables the regions write holds, at (j, k), a dense product times the scale of node j; the host sums
  the source rows of a table at their destination words; the next region multiplies (the sum + the node's own row) by
  the node's scale and adds the bias. Read at one entry this is the graph-convolution layer with the destination's
  scale factored out of the aggregation, twice, and the result at (r, q) is the softmax, at q, of row r of the
  two-layer factored logits.
-/
import proofs.«145041_j41059887350098_2_alg».proof.Proof.KernelChain
import proofs.«145041_j41059887350098_2_alg».proof.Proof.LibGcnFactor
import proofs.«145041_j41059887350098_2_alg».proof.Proof.LibGcnHost
import proofs.«145041_j41059887350098_2_alg».proof.Proof.LibColRowBroadcast
import proofs.«145041_j41059887350098_2_alg».proof.Proof.LibRowSoftmax

set_option maxRecDepth 16384

noncomputable section

open scoped BigOperators

namespace Cert.KernelIdeal.Chain

open Idealize.ShloMosaic Idealize.ShloMosaic.ValueIdx
open Cert.KernelIdeal Cert.KernelIdeal.Gen Cert.KernelIdeal.Regions Cert.LibGcnHost Cert.LibGcnFactor Cert.RowSoftmax

theorem nodes_pos : 0 < 50000 := by norm_num
theorem edges_ne_one : (800000 : Nat) ≠ 1 := by norm_num

variable (ei : IVec S2x800000 32)

/-- Which edges are sent to a node, which rows they read, and the scales, as the kernel's program computes them. -/
abbrev sel : Fin 800000 → Fin 50000 → Prop := selOf (dstWords ei)
abbrev src : Fin 800000 → Fin 50000 := srcOf nodes_pos 50000#32 (srcWords ei)
abbrev scale : Fin 50000 → EReal := fun ρ => scaleVec ei (ix1 ρ)

/-- The scale column at row r is node r's scale. -/
theorem scaleCol_apply (r : Fin 50000) : scaleCol ei (ix2 r (0 : Fin 1)) = scaleVec ei (ix1 r) :=
  Cert.ColRowBroadcast.colCast_apply _ _ r 0

/-- A region's aggregated row over a table whose entries carry their node's scale is the factored layer. -/
theorem aggRow_factored {C : Nat} (gr : GatherDims ⟨2, ![50000, C]⟩ ⟨2, ![800000, 1]⟩ ⟨2, ![800000, C]⟩)
    (sd : ScatterDims ⟨2, ![50000, C]⟩ ⟨2, ![800000, 1]⟩ ⟨2, ![800000, C]⟩)
    (r1 : gr.offsetDims = [1]) (r2 : gr.collapsedSliceDims = [0]) (r3 : gr.operandBatchingDims = [])
    (r4 : gr.startIndicesBatchingDims = []) (r5 : gr.startIndexMap = [0]) (r6 : gr.indexVectorDim = 1)
    (r7 : gr.sliceSizes = ![1, C])
    (s1 : sd.updateWindowDims = [1]) (s2 : sd.insertedWindowDims = [0])
    (s3 : sd.scatterDimsToOperandDims = [0]) (s4 : sd.indexVectorDim = 1)
    (hz : (⟨0, ![]⟩ : Shape).BroadcastsInDim ⟨2, ![50000, C]⟩ ![])
    (hb : (⟨1, ![C]⟩ : Shape).ShapeCasts ⟨2, ![1, C]⟩)
    (T : FVec Ideal ⟨2, ![50000, C]⟩ .bf16) (Hh : Fin 50000 → Fin C → EReal) (b : FVec Ideal ⟨1, ![C]⟩ .f32)
    (hT : ∀ j k, T (ix2 j k) = Hh j k * scaleVec ei (ix1 j)) (r : Fin 50000) (k : Fin C) :
    aggRow (gatheredSum (F := Ideal) bitsLt_bf16_f32 gr sd bcast_S800000_S800000x1_0 bcast_S_S800000 hz 50000#32 T
        (dstWords ei) (srcWords ei)) T (scaleCol ei) (shapeCast ⟨2, ![1, C]⟩ b hb) r k
      = aggFactored (sel ei) (src ei) (scale ei) Hh (fun γ => b (ix1 γ)) r k := by
  unfold aggRow aggFactored
  rw [gatheredSum_apply nodes_pos edges_ne_one bitsLt_bf16_f32 gr sd r1 r2 r3 r4 r5 r6 r7 s1 s2 s3 s4, scaleCol_apply,
    Cert.ColRowBroadcast.rowCast_apply, hT r k]
  refine congrArg (fun S => scaleVec ei (ix1 r) * ((0 + S) + Hh r k * scaleVec ei (ix1 r)) + b (ix1 k)) ?_
  refine Finset.sum_congr rfl fun e _ => ?_
  split_ifs
  · rw [hT]
  · rfl

variable (x : FVec Ideal S50000x128 .f32) (w1 : FVec Ideal S128x128 .f32) (b1 : FVec Ideal S128 .f32)
  (w2 : FVec Ideal S128x64 .f32) (b2 : FVec Ideal S64 .f32)

/-- The first table at (j, k). -/
theorem table1_apply (j : Fin 50000) (k : Fin 128) :
    table1 x ei w1 (ix2 j k)
      = dense (fun r k => x (ix2 r k)) (fun k c => w1 (ix2 k c)) j k * scaleVec ei (ix1 j) := by
  unfold table1
  rw [projScaled_ix2, scaleCol_apply]

/-- The first aggregated row is the first factored layer. -/
theorem agg1_apply (r : Fin 50000) (k : Fin 128) :
    aggRow (sums1 x ei w1) (table1 x ei w1) (scaleCol ei) (shapeCast S1x128 b1 shapeCasts_S128_S1x128) r k
      = aggFactored (sel ei) (src ei) (scale ei) (dense (fun r k => x (ix2 r k)) (fun k c => w1 (ix2 k c)))
          (fun γ => b1 (ix1 γ)) r k :=
  aggRow_factored ei _ _ rfl rfl rfl rfl rfl rfl rfl rfl rfl rfl rfl bcast_S_S50000x128 shapeCasts_S128_S1x128
    (table1 x ei w1) _ b1 (table1_apply ei x w1) r k

/-- The second table at (j, k). -/
theorem table2_apply (j : Fin 50000) (k : Fin 64) :
    table2 x ei w1 b1 w2 (ix2 j k)
      = dense (aggFactored (sel ei) (src ei) (scale ei) (dense (fun r k => x (ix2 r k)) (fun k c => w1 (ix2 k c)))
          (fun γ => b1 (ix1 γ))) (fun k c => w2 (ix2 k c)) j k * scaleVec ei (ix1 j) := by
  unfold table2
  rw [aggProjScaled_ix2, scaleCol_apply]
  refine congrArg (fun A => dense A (fun k c => w2 (ix2 k c)) j k * scaleVec ei (ix1 j)) ?_
  exact funext fun ρ => funext fun κ => agg1_apply ei x w1 b1 ρ κ

/-- THE RESULT AT (r, q): the softmax, at q, of row r of the factored logits. -/
theorem result_apply (r : Fin 50000) (q : Fin 64) :
    result x ei w1 b1 w2 b2 (ix2 r q)
      = rowSoftmax (fun k => logitsFactored (sel ei) (src ei) (scale ei) (fun r k => x (ix2 r k))
          (fun k c => w1 (ix2 k c)) (fun γ => b1 (ix1 γ)) (fun k c => w2 (ix2 k c)) (fun γ => b2 (ix1 γ)) r k) q := by
  unfold result
  rw [aggSoftmax_ix2]
  refine congrArg (fun f => rowSoftmax f q) (funext fun k => ?_)
  exact aggRow_factored ei _ _ rfl rfl rfl rfl rfl rfl rfl rfl rfl rfl rfl bcast_S_S50000x64 shapeCasts_S64_S1x64
    (table2 x ei w1 b1 w2) _ b2 (table2_apply ei x w1 b1 w2) r k

end Cert.KernelIdeal.Chain

end
-- ==== Proof.LibHostRowSoftmax.lean ====
/-
  Softmax along the last axis of a matrix as a host program spells it, read at one element on the extended reals, over
  any sizes: the row maximum by a max-reduction from −∞ (and one more maximum with −∞, which changes nothing), cast to a
  column and broadcast back, subtracted; the exponential; the row sum by an add-reduction from zero, cast and broadcast
  back; the quotient. At (p, q) the whole expression is the softmax of row p at q.
-/
import Idealize.ShloMosaic.PureOps.Ideal.Laws
import Idealize.ShloMosaic.Lib.ValueIdx
import Idealize.ShloMosaic.Lib.Pipeline.Value
import proofs.«145041_j41059887350098_2_alg».proof.Proof.LibRowSoftmax

noncomputable section

open scoped BigOperators

namespace Cert.HostRowSoftmax

open Idealize.ShloMosaic Idealize.ShloMosaic.ValueIdx Cert.RowSoftmax

/-- The host's max-reduction over the last of two axes, from an initial value, at row p: the fold of `max` from the
    initial value over that row. -/
theorem hostRowFold_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun l : Fin b => x (ix2 p l)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

/-- The host's add-reduction over the last of two axes, from the zero word, at row p: the sum of that row. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ l : Fin b, x (ix2 p l) := by
  simp only [Host.reduceAdd, Ideal.hostReduceAdd_def]
  rw [Ideal.hostReduceAdd_single h' h]
  rw [constant_apply, Ideal.ofBits_zero_f32, zero_add]
  refine Finset.sum_congr rfl fun l _ => congrArg x (funext fun e => Fin.ext ?_)
  match e with
  | ⟨0, _⟩ => rfl
  | ⟨1, _⟩ => rfl

/-- A vector of `a` entries laid as a column [a, 1] and then along the lanes to [a, b] by two `broadcast_in_dim`s reads,
    at (p, q), entry p. -/
theorem keepdimsCol_apply {α : Type} {a b : ℕ} (u : (⟨1, ![a]⟩ : Shape).Idx → α)
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    broadcastInDim ⟨2, ![a, b]⟩ ![0, 1] b2 (broadcastInDim ⟨2, ![a, 1]⟩ ![0] b1 u) (ix2 p q) = u (ix1 p) := by
  refine (broadcastInDim_apply _ b2 _ (ix2 p q) (ix2 p (0 : Fin 1)) fun c => ?_).trans ?_
  · match c with
    | ⟨0, _⟩ =>
      show p.val = if a = 1 then 0 else p.val
      split
      · have := p.isLt; omega
      · rfl
    | ⟨1, _⟩ => exact (if_pos rfl).symm
  · refine broadcastInDim_apply _ b1 u (ix2 p (0 : Fin 1)) (ix1 p) fun c => ?_
    match c with
    | ⟨0, _⟩ =>
      show p.val = if a = 1 then 0 else p.val
      split
      · have := p.isLt; omega
      · rfl

/-- The row maximum as the host takes it — the max-reduction from −∞, then the maximum with −∞ broadcast from rank
    zero — at row p: the row's greatest entry. -/
theorem hostRowMax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![]) (p : Fin a) :
    maximumf (broadcastInDim ⟨1, ![a]⟩ ![] b0 (constant (F := Ideal) ⟨0, ![]⟩ .f32 0xFF800000#32))
        (Host.reduce FloatOps.maximumf s (constant (F := Ideal) ⟨0, ![]⟩ .f32 0xFF800000#32) h' hu) (ix1 p)
      = rowMax (fun l : Fin b => s (ix2 p l)) := by
  have e1 : broadcastInDim ⟨1, ![a]⟩ ![] b0 (constant (F := Ideal) ⟨0, ![]⟩ .f32 0xFF800000#32) (ix1 p)
      = Ideal.ofBits .f32 0xFF800000#32 :=
    broadcastInDim_apply ![] b0 (constant (F := Ideal) ⟨0, ![]⟩ .f32 0xFF800000#32) (ix1 p) (fun e => e.elim0) (fun e => e.elim0)
  rw [maximumf_apply, e1, max_negInf, hostRowFold_apply s _ h' h hu p, constant_apply]
  unfold rowMax
  rfl

/-- The host's exponential of a difference at an index. -/
theorem hostExpSub_apply {t : Shape} (s B : FVec Ideal t .f32) (i : t.Idx) :
    Host.exp (subf s B) i = Ideal.exp (s i - B i) := rfl

/-- The host's quotient at an index. -/
theorem hostDivf_apply {t : Shape} (u v : FVec Ideal t .f32) (i : t.Idx) :
    Host.divf u v i = Ideal.div (u i) (v i) := rfl

/-- The host's whole softmax expression at (p, q): the softmax of row p at q. -/
theorem hostSoftmax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    Host.divf
        (Host.exp (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] b2 (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu))) (ix2 p q)
      = softmax2 s (ix2 p q) := by
  have hsub : ∀ k : Fin b, Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))) (ix2 p k)
      = Ideal.exp (s (ix2 p k) - rowMax (fun l : Fin b => s (ix2 p l))) := fun k => by
    rw [hostExpSub_apply, keepdimsCol_apply, hostRowMax_apply s h' h hu b0 p]
  rw [softmax2_ix2]
  unfold rowSoftmax
  rw [hostDivf_apply, keepdimsCol_apply, hostRowSum_apply _ h' h hu p, hsub q]
  exact congrArg _ (Finset.sum_congr rfl fun k _ => hsub k)

end Cert.HostRowSoftmax

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.RefValue.lean ====
/-
  The idealized reference's result read at one entry.

  The reference computes, from the edge list, the two vectors of index words and one scale per node (one over the square
  root of one plus the in-degree); then twice a dense product (rows cut off below at zero, times a weight table)
  followed by the edgewise graph convolution — gather the source rows, scale row e by D (source) · D (destination), add
  the rows up at their destination words, add H · D², add the bias —; then the softmax of every row. Entry (r, q) of
  its result is the softmax, at q, of row r of the two-layer edgewise logits.
-/
import proofs.«145041_j41059887350098_2_alg».proof.Proof.Gen.ReferenceIdeal.Read
import proofs.«145041_j41059887350098_2_alg».proof.Proof.LibGcnHost
import proofs.«145041_j41059887350098_2_alg».proof.Proof.LibGcnFactor
import proofs.«145041_j41059887350098_2_alg».proof.Proof.LibRowSoftmax
import proofs.«145041_j41059887350098_2_alg».proof.Proof.LibHostRowSoftmax
import proofs.«145041_j41059887350098_2_alg».proof.Proof.LibHostReads
import proofs.«145041_j41059887350098_2_alg».proof.Proof.LibHostLayout
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read Cert.LibGcnHost Cert.LibGcnFactor Cert.RowSoftmax

variable (x0 : FVec Ideal S50000x128 .f32) (x1 : IVec S2x800000 32) (x2 : FVec Ideal S128x128 .f32)
  (x3 : FVec Ideal S128 .f32) (x4 : FVec Ideal S128x64 .f32) (x5 : FVec Ideal S64 .f32)

theorem nodes_pos : 0 < 50000 := by norm_num
theorem nodes_ne_one : (50000 : Nat) ≠ 1 := by norm_num
theorem edges_ne_one : (800000 : Nat) ≠ 1 := by norm_num

/-- The scale vector is the inverse square root of one plus the in-degree. -/
theorem scale_eq : val_main_v17 (F := Ideal) x1
    = invSqrtDeg (F := Ideal) scatter_S50000_S800000x1_S800000_n_0_0_1 bcast_S800000_S800000x1_0 bcast_S_S800000
        bcast_S_S50000 50000#32 (val_main_v3 (F := Ideal) x1) := rfl

/-- The second layer recomputes the same scale vector. -/
theorem scale_again : val_main_v67 (F := Ideal) x1 = val_main_v17 (F := Ideal) x1 := rfl

/-- The first layer is an edgewise convolution of the first dense product. -/
theorem layer1_eq : val_main_v53 (F := Ideal) x0 x1 x2 x3
    = edgewiseConv (F := Ideal) gather_S50000_S800000x1_S800000_n_0_n_n_0_1_1
        gather_S50000x128_S800000x1_S800000x128_1_0_n_n_0_1_1128 scatter_S50000x128_S800000x1_S800000x128_1_0_0_1
        bcast_S800000_S800000x1_0 bcast_S800000x1_S800000x128_0_1 bcast_S_S800000 bcast_S_S50000x128
        bcast_S50000_S50000x1_0 bcast_S50000x1_S50000x128_0_1 bcast_S128_S1x128_1 bcast_S1x128_S50000x128_0_1
        50000#32 (val_main_v5 (F := Ideal) x0 x2) (val_main_v17 (F := Ideal) x1) (val_main_v3 (F := Ideal) x1)
        (val_main_v1 (F := Ideal) x1) x3 := rfl

/-- The second layer is an edgewise convolution of the second dense product. -/
theorem layer2_eq : val_main_v103 (F := Ideal) x0 x1 x2 x3 x4 x5
    = edgewiseConv (F := Ideal) gather_S50000_S800000x1_S800000_n_0_n_n_0_1_1
        gather_S50000x64_S800000x1_S800000x64_1_0_n_n_0_1_164 scatter_S50000x64_S800000x1_S800000x64_1_0_0_1
        bcast_S800000_S800000x1_0 bcast_S800000x1_S800000x64_0_1 bcast_S_S800000 bcast_S_S50000x64
        bcast_S50000_S50000x1_0 bcast_S50000x1_S50000x64_0_1 bcast_S64_S1x64_1 bcast_S1x64_S50000x64_0_1
        50000#32 (val_main_v55 (F := Ideal) x0 x1 x2 x3 x4) (val_main_v17 (F := Ideal) x1) (val_main_v3 (F := Ideal) x1)
        (val_main_v1 (F := Ideal) x1) x5 := rfl

end Cert.ReferenceIdeal.RefValue

end
-- ==== Proof.RefEntry.lean ====
/-
  The idealized reference's result read at one entry: the softmax, at q, of row r of the two-layer edgewise logits.
-/
import proofs.«145041_j41059887350098_2_alg».proof.Proof.RefValue

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read Cert.LibGcnHost Cert.LibGcnFactor Cert.RowSoftmax

variable (x0 : FVec Ideal S50000x128 .f32) (x1 : IVec S2x800000 32) (x2 : FVec Ideal S128x128 .f32)
  (x3 : FVec Ideal S128 .f32) (x4 : FVec Ideal S128x64 .f32) (x5 : FVec Ideal S64 .f32)

/-! ## At one entry -/

/-- The splat zero the first cut-off compares with. -/
theorem zeros0_apply (i : S50000x128.Idx) : val_main_call0_v0 (F := Ideal) i = 0 := by
  unfold val_main_call0_v0 val_main_call0_cst
  rw [Cert.HostLayout.scalar_apply, constant_apply, Ideal.ofBits_zero_f32]

/-- The splat zero the second cut-off compares with. -/
theorem zeros1_apply (i : S50000x128.Idx) : val_main_call1_v0 (F := Ideal) i = 0 := by
  unfold val_main_call1_v0 val_main_call1_cst
  rw [Cert.HostLayout.scalar_apply, constant_apply, Ideal.ofBits_zero_f32]

/-- The first dense product at (r, c). -/
theorem dense1_apply (r : Fin 50000) (c : Fin 128) :
    val_main_v5 (F := Ideal) x0 x2 (ix2 r c) = dense (fun r k => x0 (ix2 r k)) (fun k c => x2 (ix2 k c)) r c := by
  show Host.dotGeneral (F := Ideal) (DotDims.plain 50000 128 128) none (val_main_v4 (F := Ideal) x0) x2 (ix2 r c) = _
  rw [Cert.LibHostReads.dotGeneral_plain_apply]
  unfold dense
  refine Finset.sum_congr rfl fun k _ => ?_
  unfold val_main_v4
  rw [maximumf_apply, zeros0_apply]

/-- The second dense product at (r, c). -/
theorem dense2_apply (r : Fin 50000) (c : Fin 64) :
    val_main_v55 (F := Ideal) x0 x1 x2 x3 x4 (ix2 r c)
      = dense (fun r k => val_main_v53 (F := Ideal) x0 x1 x2 x3 (ix2 r k)) (fun k c => x4 (ix2 k c)) r c := by
  show Host.dotGeneral (F := Ideal) (DotDims.plain 50000 128 64) none (val_main_v54 (F := Ideal) x0 x1 x2 x3) x4 (ix2 r c) = _
  rw [Cert.LibHostReads.dotGeneral_plain_apply]
  unfold dense
  refine Finset.sum_congr rfl fun k _ => ?_
  unfold val_main_v54
  rw [maximumf_apply, zeros1_apply]

/-- Which edges are sent to a node, which rows they read, and the scales, as the reference computes them. -/
abbrev sel : Fin 800000 → Fin 50000 → Prop := selOf (val_main_v3 (F := Ideal) x1)
abbrev src : Fin 800000 → Fin 50000 := srcOf nodes_pos 50000#32 (val_main_v1 (F := Ideal) x1)
abbrev dst : Fin 800000 → Fin 50000 := srcOf nodes_pos 50000#32 (val_main_v3 (F := Ideal) x1)
abbrev scale : Fin 50000 → EReal := fun ρ => val_main_v17 (F := Ideal) x1 (ix1 ρ)

/-- The first layer at (r, c). -/
theorem layer1_apply (r : Fin 50000) (c : Fin 128) :
    val_main_v53 (F := Ideal) x0 x1 x2 x3 (ix2 r c)
      = aggEdgewise (sel x1) (src x1) (dst x1) (scale x1)
          (dense (fun r k => x0 (ix2 r k)) (fun k c => x2 (ix2 k c))) (fun γ => x3 (ix1 γ)) r c := by
  rw [layer1_eq, edgewiseConv_apply nodes_pos nodes_ne_one edges_ne_one _ _ _ rfl rfl rfl rfl rfl rfl rfl rfl rfl rfl rfl
    rfl rfl rfl rfl rfl rfl rfl]
  refine congrArg (fun H => aggEdgewise (sel x1) (src x1) (dst x1) (scale x1) H (fun γ => x3 (ix1 γ)) r c) ?_
  exact funext fun ρ => funext fun γ => dense1_apply x0 x2 ρ γ

/-- The second layer at (r, c): the two-layer edgewise logits. -/
theorem layer2_apply (r : Fin 50000) (c : Fin 64) :
    val_main_v103 (F := Ideal) x0 x1 x2 x3 x4 x5 (ix2 r c)
      = logitsEdgewise (sel x1) (src x1) (dst x1) (scale x1) (fun r k => x0 (ix2 r k)) (fun k c => x2 (ix2 k c))
          (fun γ => x3 (ix1 γ)) (fun k c => x4 (ix2 k c)) (fun γ => x5 (ix1 γ)) r c := by
  rw [layer2_eq, edgewiseConv_apply nodes_pos nodes_ne_one edges_ne_one _ _ _ rfl rfl rfl rfl rfl rfl rfl rfl rfl rfl rfl
    rfl rfl rfl rfl rfl rfl rfl]
  unfold logitsEdgewise
  refine congrArg (fun H => aggEdgewise (sel x1) (src x1) (dst x1) (scale x1) H (fun γ => x5 (ix1 γ)) r c) ?_
  refine funext fun ρ => funext fun γ => (dense2_apply x0 x1 x2 x3 x4 ρ γ).trans ?_
  refine congrArg (fun A => dense A (fun k c => x4 (ix2 k c)) ρ γ) ?_
  exact funext fun ρ' => funext fun k => layer1_apply x0 x1 x2 x3 ρ' k

/-- THE RESULT AT (r, q): the softmax, at q, of row r of the edgewise logits. -/
theorem result_apply (r : Fin 50000) (q : Fin 64) :
    val_main_v114 (F := Ideal) x0 x1 x2 x3 x4 x5 (ix2 r q)
      = rowSoftmax (fun k => logitsEdgewise (sel x1) (src x1) (dst x1) (scale x1) (fun r k => x0 (ix2 r k))
          (fun k c => x2 (ix2 k c)) (fun γ => x3 (ix1 γ)) (fun k c => x4 (ix2 k c)) (fun γ => x5 (ix1 γ)) r k) q := by
  refine (Cert.HostRowSoftmax.hostSoftmax_apply (val_main_v103 (F := Ideal) x0 x1 x2 x3 x4 x5)
    reducesTo_S50000x64_S50000_d1 (by decide) h_S_ bcast_S_S50000 bcast_S50000_S50000x1_0
    bcast_S50000x1_S50000x64_0_1 r q).trans ?_
  rw [softmax2_ix2]
  exact congrArg (fun f => rowSoftmax f q) (funext fun k => layer2_apply x0 x1 x2 x3 x4 x5 r k)

end Cert.ReferenceIdeal.RefValue

end
-- ==== Proof.Bridge.lean ====
/-
  The two results are one function of the arguments on real inputs.

  Both programs slice the same two vectors of index words out of the edge list and compute the same scale vector from
  them, so "edge e is sent to node r", "the row edge e reads" and "the scale of node r" are the same on both sides. The
  kernel's result at (r, q) is the softmax of row r of the logits with each node's scale factored out of its
  aggregation; the reference's, of the logits with both scales on every edge. The scales are real numbers (one over the
  square root of a positive count) and, under the precondition, so are the features, the weights and the first bias;
  then the scale distributes over the finite sum of the edges sent to a node and the two logits agree, hence so do
  their softmaxes.
-/
import proofs.«145041_j41059887350098_2_alg».proof.Proof.KernelEntry
import proofs.«145041_j41059887350098_2_alg».proof.Proof.RefEntry
import proofs.«145041_j41059887350098_2_alg».proof.Proof.LibGcnFactor
import proofs.«145041_j41059887350098_2_alg».proof.Proof.LibGcnHost
import proofs.«145041_j41059887350098_2_alg».proof.Proof.LibRealEntries

set_option maxRecDepth 16384

noncomputable section

namespace Cert.Proof.Bridge

open Idealize.ShloMosaic Idealize.ShloMosaic.ValueIdx
open Cert.LibGcnHost Cert.LibGcnFactor Cert.LibRealEntries Cert.RowSoftmax

/-- The destination words are the same slice of the edge list in both programs. -/
theorem dst_same (ei : IVec ⟨2, ![2, 800000]⟩ 32) :
    Cert.KernelIdeal.Chain.dstWords ei = Cert.ReferenceIdeal.Read.val_main_v3 (F := Ideal) ei := rfl

/-- So are the source words. -/
theorem src_same (ei : IVec ⟨2, ![2, 800000]⟩ 32) :
    Cert.KernelIdeal.Chain.srcWords ei = Cert.ReferenceIdeal.Read.val_main_v1 (F := Ideal) ei := rfl

/-- And the scale vectors are the same function of them. -/
theorem scale_same (ei : IVec ⟨2, ![2, 800000]⟩ 32) :
    Cert.KernelIdeal.Chain.scaleVec ei = Cert.ReferenceIdeal.Read.val_main_v17 (F := Ideal) ei := rfl

/-- Every node's scale is a real number. -/
theorem scale_real (ei : IVec ⟨2, ![2, 800000]⟩ 32) (ρ : Fin 50000) :
    IsReal (Cert.KernelIdeal.Chain.scaleVec ei (ix1 ρ)) :=
  isReal_invSqrtDeg Cert.KernelIdeal.Chain.edges_ne_one _ rfl rfl rfl rfl _ _ _ 50000#32 _ ρ

/-- THE TWO RESULTS AGREE on real features, weights and first bias. -/
theorem result_eq (x : FVec Ideal ⟨2, ![50000, 128]⟩ .f32) (ei : IVec ⟨2, ![2, 800000]⟩ 32)
    (w1 : FVec Ideal ⟨2, ![128, 128]⟩ .f32) (b1 : FVec Ideal ⟨1, ![128]⟩ .f32) (w2 : FVec Ideal ⟨2, ![128, 64]⟩ .f32)
    (b2 : FVec Ideal ⟨1, ![64]⟩ .f32) (hx : ∀ i, IsReal (x i)) (hw1 : ∀ i, IsReal (w1 i)) (hb1 : ∀ i, IsReal (b1 i))
    (hw2 : ∀ i, IsReal (w2 i)) :
    Cert.KernelIdeal.Chain.result x ei w1 b1 w2 b2
      = Cert.ReferenceIdeal.Read.val_main_v114 (F := Ideal) x ei w1 b1 w2 b2 := by
  funext i
  obtain ⟨r, q, rfl⟩ : ∃ (r : Fin 50000) (q : Fin 64), i = ix2 r q := ⟨i 0, i 1, eq_ix2 i⟩
  rw [Cert.KernelIdeal.Chain.result_apply, Cert.ReferenceIdeal.RefValue.result_apply]
  refine congrArg (fun f => rowSoftmax f q) (funext fun k => ?_)
  exact logits_eq (Cert.KernelIdeal.Chain.sel ei) (Cert.KernelIdeal.Chain.src ei)
    (srcOf Cert.KernelIdeal.Chain.nodes_pos 50000#32 (Cert.KernelIdeal.Chain.dstWords ei))
    (fun e ρ h => srcOf_of_sel _ _ _ e ρ h) (Cert.KernelIdeal.Chain.scale ei) _ _ _ _ _
    (scale_real ei) (fun ρ κ => hx _) (fun κ γ => hw1 _) (fun γ => hb1 _) (fun κ γ => hw2 _) r k

end Cert.Proof.Bridge

end
-- ==== Proof.lean ====
/-
  Two graph-convolution layers and a row softmax on 50000 nodes and 800000 edges: the kernel's program against the plain
  reference, on the extended reals.

  The reference scales the row gathered for edge e by D (source) · D (destination) before adding it up at the
  destination, then adds H · D² and the bias. The kernel's program scales every row of H by its own node's D once (inside
  the first and the second pipelined region), lets the host add up the gathered rows unweighted, and multiplies the sum
  plus the node's own row by D (destination) in the next region. The two agree because D (destination) is the same for
  every edge added up at one node and distributes over that finite sum — a law of real numbers, which is why the
  precondition (every float input finite) is used: it makes the features, the weights and the first bias real, and the
  scales are real because a degree plus one is positive. A change of float format is the identity on the extended
  reals, so the kernel's narrow tables are the wide ones. The last bias is only ever added, and may be anything.

  The three frames: the two kernel programs by their generated frame certificates, the reference by its generated run.
  The idealization rewrote no operation, so there is nothing to preserve. The value claim: the kernel's run with its
  result named (KernelRun), each region's output array as a function of its input arrays (Region0, Region1, Region2),
  the buffers read back through the six boundaries (KernelChain), the result at one entry on both sides (KernelEntry,
  RefValue, RefEntry), the law (LibGcnFactor) and its hypotheses (Finite, LibGcnHost), joined in Bridge.
-/
import proofs.«145041_j41059887350098_2_alg».proof.Defs
import proofs.«145041_j41059887350098_2_alg».proof.Proof.Gen.Kernel
import proofs.«145041_j41059887350098_2_alg».proof.Proof.Gen.Kernel.Skeleton
import proofs.«145041_j41059887350098_2_alg».proof.Proof.Gen.Kernel.Launch
import proofs.«145041_j41059887350098_2_alg».proof.Proof.Gen.Kernel.Points
import proofs.«145041_j41059887350098_2_alg».proof.Proof.Gen.Kernel.Frame
import proofs.«145041_j41059887350098_2_alg».proof.Proof.Gen.KernelIdeal
import proofs.«145041_j41059887350098_2_alg».proof.Proof.Gen.KernelIdeal.Skeleton
import proofs.«145041_j41059887350098_2_alg».proof.Proof.Gen.KernelIdeal.Launch
import proofs.«145041_j41059887350098_2_alg».proof.Proof.Gen.KernelIdeal.Points
import proofs.«145041_j41059887350098_2_alg».proof.Proof.Gen.KernelIdeal.Frame
import proofs.«145041_j41059887350098_2_alg».proof.Proof.Gen.ReferenceIdeal
import proofs.«145041_j41059887350098_2_alg».proof.Proof.Gen.Pre_finite_inputs
import proofs.«145041_j41059887350098_2_alg».proof.Proof.Gen.ReferenceIdeal.Run
import proofs.«145041_j41059887350098_2_alg».proof.Proof.Gen.ReferenceIdeal.Read
import proofs.«145041_j41059887350098_2_alg».proof.Proof.KernelRun
import proofs.«145041_j41059887350098_2_alg».proof.Proof.KernelChain
import proofs.«145041_j41059887350098_2_alg».proof.Proof.Finite
import proofs.«145041_j41059887350098_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run and end with the same result: the kernel's program at
    its result function of the launch contents, the reference at its composed term, equal on real inputs. -/
theorem algebraic : Cert.algebraic_KernelIdeal_ReferenceIdeal := by
  intro m ρ m' ρ' hpre hagree
  refine ⟨fun c => Cert.KernelIdeal.Chain.result (Cert.KernelIdeal.Chain.X m c) (Cert.KernelIdeal.Chain.EI m c)
    (Cert.KernelIdeal.Chain.Wa m c) (Cert.KernelIdeal.Chain.Ba m c) (Cert.KernelIdeal.Chain.Wb m c)
    (Cert.KernelIdeal.Chain.Bb m c), ?_, ?_⟩
  · exact (θ_run Cert.KernelIdeal.defs _ _).mono
      (fun r h c => ⟨(h c).1.trans (Cert.KernelIdeal.Chain.boundary_eq_result m ρ c), (h c).2⟩)
      (Cert.KernelIdeal.RunValue.run_boundary m ρ)
  · refine (θ_run Cert.ReferenceIdeal.defs _ _).mono (fun r h c => ⟨(h c).1.trans ?_, (h c).2⟩)
      (Cert.ReferenceIdeal.Value.run (F := Ideal) m' ρ')
    obtain ⟨hx, hw1, hb1, hw2, -⟩ := Cert.Pre_finite_inputs.Finite.entries_real _ _ _ _ _ _ (hpre c)
    rw [Cert.ReferenceIdeal.Read.val_main_v114_eq, (hagree c).1, (hagree c).2.1, (hagree c).2.2.1, (hagree c).2.2.2.1,
      (hagree c).2.2.2.2.1, (hagree c).2.2.2.2.2]
    exact (Cert.Proof.Bridge.result_eq _ _ _ _ _ _ hx hw1 hb1 hw2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
